-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x100x81 : Shape := ⟨3, ![4, 100, 81]⟩
abbrev S4x100x256x256 : Shape := ⟨4, ![4, 100, 256, 256]⟩
abbrev S4x25 : Shape := ⟨2, ![4, 25]⟩
abbrev S4x25x256x256 : Shape := ⟨4, ![4, 25, 256, 256]⟩
abbrev S_ : Shape := ⟨0, ![]⟩

class Facts : Prop where
  bcast_S_S4x100x81 : S_.BroadcastsInDim S4x100x81 (![] : Fin 0 → Fin S4x100x81.rank)
  reducesTo_S4x100x81_S_d0_1_2 : S4x100x81.ReducesTo [0, 1, 2] S_
  h_S_ : 0 < S_.numel
  bcast_S_S4x100x256x256 : S_.BroadcastsInDim S4x100x256x256 (![] : Fin 0 → Fin S4x100x256x256.rank)
  reducesTo_S4x100x256x256_S_d0_1_2_3 : S4x100x256x256.ReducesTo [0, 1, 2, 3] S_
  bcast_S_S4x25x256x256 : S_.BroadcastsInDim S4x25x256x256 (![] : Fin 0 → Fin S4x25x256x256.rank)
  reducesTo_S4x25x256x256_S_d0_1_2_3 : S4x25x256x256.ReducesTo [0, 1, 2, 3] S_

variable [Facts]

def fn {F : FTy → Type} [FloatOps F] (main_arg0 : FVec F S4x100x81 .f32) (main_arg1 : FVec F S4x100x256x256 .f32) (main_arg2 : IVec S4x25 32) (main_arg3 : FVec F S4x25x256x256 .f32) : IVec S_ 1 :=
  let main_v0 : FVec F S4x100x81 .f32 := Host.absf main_arg0
  let main_cst : FVec F S_ .f32 := constant S_ .f32 0x7F800000#32
  let main_v1 : FVec F S4x100x81 .f32 := broadcastInDim S4x100x81 ![] bcast_S_S4x100x81 main_cst
  let main_v2 : IVec S4x100x81 1 := cmpf .olt main_v0 main_v1
  let main_c : IVec S_ 1 := constantI S_ 1 1#1
  let main_v3 : IVec S_ 1 := (fun x v => Host.reduce IntOp.andi x v reducesTo_S4x100x81_S_d0_1_2 h_S_) main_v2 main_c
  let main_v4 : FVec F S4x100x256x256 .f32 := Host.absf main_arg1
  let main_cst_0 : FVec F S_ .f32 := constant S_ .f32 0x7F800000#32
  let main_v5 : FVec F S4x100x256x256 .f32 := broadcastInDim S4x100x256x256 ![] bcast_S_S4x100x256x256 main_cst_0
  let main_v6 : IVec S4x100x256x256 1 := cmpf .olt main_v4 main_v5
  let main_c_1 : IVec S_ 1 := constantI S_ 1 1#1
  let main_v7 : IVec S_ 1 := (fun x v => Host.reduce IntOp.andi x v reducesTo_S4x100x256x256_S_d0_1_2_3 h_S_) main_v6 main_c_1
  let main_v8 : IVec S_ 1 := andi main_v3 main_v7
  let main_v9 : FVec F S4x25x256x256 .f32 := Host.absf main_arg3
  let main_cst_2 : FVec F S_ .f32 := constant S_ .f32 0x7F800000#32
  let main_v10 : FVec F S4x25x256x256 .f32 := broadcastInDim S4x25x256x256 ![] bcast_S_S4x25x256x256 main_cst_2
  let main_v11 : IVec S4x25x256x256 1 := cmpf .olt main_v9 main_v10
  let main_c_3 : IVec S_ 1 := constantI S_ 1 1#1
  let main_v12 : IVec S_ 1 := (fun x v => Host.reduce IntOp.andi x v reducesTo_S4x25x256x256_S_d0_1_2_3 h_S_) main_v11 main_c_3
  let main_v13 : IVec S_ 1 := andi main_v8 main_v12
  main_v13
-- ==== Kernel.lean ====
abbrev S4x100x81 : Shape := ⟨3, ![4, 100, 81]⟩
abbrev S4x100x256x256 : Shape := ⟨4, ![4, 100, 256, 256]⟩
abbrev S4x25 : Shape := ⟨2, ![4, 25]⟩
abbrev S4x25x256x256 : Shape := ⟨4, ![4, 25, 256, 256]⟩
abbrev S4x100x65536 : Shape := ⟨3, ![4, 100, 65536]⟩
abbrev S4x25x65536 : Shape := ⟨3, ![4, 25, 65536]⟩
abbrev S4x100x25 : Shape := ⟨3, ![4, 100, 25]⟩
abbrev S1x100x4096 : Shape := ⟨3, ![1, 100, 4096]⟩
abbrev S1x25x4096 : Shape := ⟨3, ![1, 25, 4096]⟩
abbrev S1x100x25 : Shape := ⟨3, ![1, 100, 25]⟩
abbrev S100x25 : Shape := ⟨2, ![100, 25]⟩
abbrev S100x1 : Shape := ⟨2, ![100, 1]⟩
abbrev S25x1 : Shape := ⟨2, ![25, 1]⟩
abbrev S100x4096 : Shape := ⟨2, ![100, 4096]⟩
abbrev S25x4096 : Shape := ⟨2, ![25, 4096]⟩
abbrev S100 : Shape := ⟨1, ![100]⟩
abbrev S25 : Shape := ⟨1, ![25]⟩
abbrev S1x25 : Shape := ⟨2, ![1, 25]⟩
abbrev S_ : Shape := ⟨0, ![]⟩
abbrev S4x100 : Shape := ⟨2, ![4, 100]⟩
abbrev S4x100x1 : Shape := ⟨3, ![4, 100, 1]⟩
abbrev S4x1x25 : Shape := ⟨3, ![4, 1, 25]⟩
abbrev S4x25x1 : Shape := ⟨3, ![4, 25, 1]⟩
abbrev S1 : Shape := ⟨1, ![1]⟩
abbrev S1x1x1 : Shape := ⟨3, ![1, 1, 1]⟩

abbrev nBuf : Space → Nat
  | .hbm => 53
  | .vmem => 11
  | .smem => 0
  | _ => 0

abbrev bufTy : (tb : Table) → Fin (tcTables nBuf tb) → BufTy
  | .hbm, ⟨0, _⟩ => ⟨S4x100x81, .f32⟩
  | .hbm, ⟨1, _⟩ => ⟨S4x100x256x256, .f32⟩
  | .hbm, ⟨2, _⟩ => ⟨S4x25, .i32⟩
  | .hbm, ⟨3, _⟩ => ⟨S4x25x256x256, .f32⟩
  | .hbm, ⟨4, _⟩ => ⟨S4x100x65536, .f32⟩
  | .hbm, ⟨5, _⟩ => ⟨S4x25x65536, .f32⟩
  | .hbm, ⟨6, _⟩ => ⟨S4x100x25, .f32⟩
  | .hbm, ⟨7, _⟩ => ⟨S_, .f32⟩
  | .hbm, ⟨8, _⟩ => ⟨S4x100, .f32⟩
  | .hbm, ⟨9, _⟩ => ⟨S_, .f32⟩
  | .hbm, ⟨10, _⟩ => ⟨S4x100, .f32⟩
  | .hbm, ⟨11, _⟩ => ⟨S4x100, .f32⟩
  | .hbm, ⟨12, _⟩ => ⟨S4x100x1, .f32⟩
  | .hbm, ⟨13, _⟩ => ⟨S4x100x81, .f32⟩
  | .hbm, ⟨14, _⟩ => ⟨S4x100x81, .f32⟩
  | .hbm, ⟨15, _⟩ => ⟨S4x100x81, .f32⟩
  | .hbm, ⟨16, _⟩ => ⟨S_, .f32⟩
  | .hbm, ⟨17, _⟩ => ⟨S4x100, .f32⟩
  | .hbm, ⟨18, _⟩ => ⟨S4x100x1, .f32⟩
  | .hbm, ⟨19, _⟩ => ⟨S4x100x81, .f32⟩
  | .hbm, ⟨20, _⟩ => ⟨S4x100x81, .f32⟩
  | .hbm, ⟨21, _⟩ => ⟨S4x1x25, .i32⟩
  | .hbm, ⟨22, _⟩ => ⟨S_, .i32⟩
  | .hbm, ⟨23, _⟩ => ⟨S4x1x25, .i32⟩
  | .hbm, ⟨24, _⟩ => ⟨S4x1x25, .i1⟩
  | .hbm, ⟨25, _⟩ => ⟨S_, .i32⟩
  | .hbm, ⟨26, _⟩ => ⟨S4x1x25, .i32⟩
  | .hbm, ⟨27, _⟩ => ⟨S4x1x25, .i32⟩
  | .hbm, ⟨28, _⟩ => ⟨S4x1x25, .i32⟩
  | .hbm, ⟨29, _⟩ => ⟨S4x25x1, .i32⟩
  | .hbm, ⟨30, _⟩ => ⟨S1, .i32⟩
  | .hbm, ⟨31, _⟩ => ⟨S_, .i32⟩
  | .hbm, ⟨32, _⟩ => ⟨S4x25x1, .i32⟩
  | .hbm, ⟨33, _⟩ => ⟨S4x25x1, .i1⟩
  | .hbm, ⟨34, _⟩ => ⟨S1x1x1, .i32⟩
  | .hbm, ⟨35, _⟩ => ⟨S4x25x1, .i32⟩
  | .hbm, ⟨36, _⟩ => ⟨S4x25x1, .i1⟩
  | .hbm, ⟨37, _⟩ => ⟨S4x25x1, .i1⟩
  | .hbm, ⟨38, _⟩ => ⟨S_, .i1⟩
  | .hbm, ⟨39, _⟩ => ⟨S4x25, .i1⟩
  | .hbm, ⟨40, _⟩ => ⟨S4x100x25, .f32⟩
  | .hbm, ⟨41, _⟩ => ⟨S4x100x25, .i1⟩
  | .hbm, ⟨42, _⟩ => ⟨S_, .f32⟩
  | .hbm, ⟨43, _⟩ => ⟨S4x100x25, .f32⟩
  | .hbm, ⟨44, _⟩ => ⟨S4x100x25, .f32⟩
  | .hbm, ⟨45, _⟩ => ⟨S4x100x25, .f32⟩
  | .hbm, ⟨46, _⟩ => ⟨S_, .f32⟩
  | .hbm, ⟨47, _⟩ => ⟨S4x100x25, .f32⟩
  | .hbm, ⟨48, _⟩ => ⟨S4x100x25, .f32⟩
  | .hbm, ⟨49, _⟩ => ⟨S_, .f32⟩
  | .hbm, ⟨50, _⟩ => ⟨S4x100x25, .f32⟩
  | .hbm, ⟨51, _⟩ => ⟨S4x100x25, .f32⟩
  | .hbm, ⟨52, _⟩ => ⟨S4x100x25, .f32⟩
  | .local _ .vmem, ⟨0, _⟩ => ⟨S1x100x4096, .f32⟩
  | .local _ .vmem, ⟨1, _⟩ => ⟨S1x100x4096, .f32⟩
  | .local _ .vmem, ⟨2, _⟩ => ⟨S1x25x4096, .f32⟩
  | .local _ .vmem, ⟨3, _⟩ => ⟨S1x25x4096, .f32⟩
  | .local _ .vmem, ⟨4, _⟩ => ⟨S1x100x25, .f32⟩
  | .local _ .vmem, ⟨5, _⟩ => ⟨S1x100x25, .f32⟩
  | .local _ .vmem, ⟨6, _⟩ => ⟨S100x25, .f32⟩
  | .local _ .vmem, ⟨7, _⟩ => ⟨S100x25, .f32⟩
  | .local _ .vmem, ⟨8, _⟩ => ⟨S100x1, .f32⟩
  | .local _ .vmem, ⟨9, _⟩ => ⟨S100x1, .f32⟩
  | .local _ .vmem, ⟨10, _⟩ => ⟨S25x1, .f32⟩
  | _, _ => ⟨S4x100x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_cst_3 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v58 : BitVec 1 := Scalar.cmpi .eq arg1 c15_i32
  let v59 : BitVec 32 := Scalar.extui v58
  let c0_i32_32 : BitVec 32 := 0#32
  let v60 : BitVec 1 := Scalar.cmpi .ne v59 c0_i32_32
  v60

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x100x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x25x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x100x25 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x100x256x256_S4x100x65536 : S4x100x256x256.ShapeCasts S4x100x65536
  shapeCasts_S4x25x256x256_S4x25x65536 : S4x25x256x256.ShapeCasts S4x25x65536
  inb_S100x25_S100x25_0_0 : ∀ a, (![0, 0] : Fin 2 → Nat) a + S100x25.size a ≤ S100x25.size a
  h_S100x25 : 0 < S100x25.numel
  shapeCasts_S100x25_S100x25 : S100x25.ShapeCasts S100x25
  inb_S100x1_S100x1_0_0 : ∀ a, (![0, 0] : Fin 2 → Nat) a + S100x1.size a ≤ S100x1.size a
  h_S100x1 : 0 < S100x1.numel
  shapeCasts_S100x1_S100x1 : S100x1.ShapeCasts S100x1
  inb_S25x1_S25x1_0_0 : ∀ a, (![0, 0] : Fin 2 → Nat) a + S25x1.size a ≤ S25x1.size a
  h_S25x1 : 0 < S25x1.numel
  shapeCasts_S25x1_S25x1 : S25x1.ShapeCasts S25x1
  inb_S1x100x4096_S1x100x4096_0_0_0 : ∀ a, (![0, 0, 0] : Fin 3 → Nat) a + S1x100x4096.size a ≤ S1x100x4096.size a
  h_S1x100x4096 : 0 < S1x100x4096.numel
  shapeCasts_S1x100x4096_S100x4096 : S1x100x4096.ShapeCasts S100x4096
  inb_S1x25x4096_S1x25x4096_0_0_0 : ∀ a, (![0, 0, 0] : Fin 3 → Nat) a + S1x25x4096.size a ≤ S1x25x4096.size a
  h_S1x25x4096 : 0 < S1x25x4096.numel
  shapeCasts_S1x25x4096_S25x4096 : S1x25x4096.ShapeCasts S25x4096
  reduces_S100x4096_S100 : S100x4096.Reduces [1] S100
  shapeCasts_S100_S100x1 : S100.ShapeCasts S100x1
  reduces_S25x4096_S25 : S25x4096.Reduces [1] S25
  shapeCasts_S25_S25x1 : S25.ShapeCasts S25x1
  bitsLt_bf16_f32 : FTy.bits .bf16 < FTy.bits .f32
  broadcasts_S100x1_S100x25 : S100x1.Broadcasts S100x25
  transposes_S25x1_p1_0_S1x25 : S25x1.Transposes [1, 0] S1x25
  broadcasts_S1x25_S100x25 : S1x25.Broadcasts S100x25
  inb_S1x100x25_S1x100x25_0_0_0 : ∀ a, (![0, 0, 0] : Fin 3 → Nat) a + S1x100x25.size a ≤ S1x100x25.size a
  h_S1x100x25 : 0 < S1x100x25.numel
  shapeCasts_S1x100x25_S100x25 : S1x100x25.ShapeCasts S100x25
  shapeCasts_S100x25_S1x100x25 : S100x25.ShapeCasts S1x100x25
  reducesTo_S4x100x81_S4x100_d2 : S4x100x81.ReducesTo [2] S4x100
  h_S_ : 0 < S_.numel
  bcast_S_S4x100 : S_.BroadcastsInDim S4x100 (![] : Fin 0 → Fin S4x100.rank)
  bcast_S4x100_S4x100x1_0_1 : S4x100.BroadcastsInDim S4x100x1 (![0, 1] : Fin 2 → Fin S4x100x1.rank)
  bcast_S4x100x1_S4x100x81_0_1_2 : S4x100x1.BroadcastsInDim S4x100x81 (![0, 1, 2] : Fin 3 → Fin S4x100x81.rank)
  bcast_S4x25_S4x1x25_0_2 : S4x25.BroadcastsInDim S4x1x25 (![0, 2] : Fin 2 → Fin S4x1x25.rank)
  bcast_S_S4x1x25 : S_.BroadcastsInDim S4x1x25 (![] : Fin 0 → Fin S4x1x25.rank)
  shapeCasts_S4x1x25_S4x25x1 : S4x1x25.ShapeCasts S4x25x1
  bcast_S_S4x25x1 : S_.BroadcastsInDim S4x25x1 (![] : Fin 0 → Fin S4x25x1.rank)
  bcast_S1_S1x1x1_2 : S1.BroadcastsInDim S1x1x1 (![2] : Fin 1 → Fin S1x1x1.rank)
  bcast_S1x1x1_S4x25x1_0_1_2 : S1x1x1.BroadcastsInDim S4x25x1 (![0, 1, 2] : Fin 3 → Fin S4x25x1.rank)
  reducesTo_S4x25x1_S4x25_d2 : S4x25x1.ReducesTo [2] S4x25
  bcast_S4x25_S4x100x25_0_2 : S4x25.BroadcastsInDim S4x100x25 (![0, 2] : Fin 2 → Fin S4x100x25.rank)
  bcast_S_S4x100x25 : S_.BroadcastsInDim S4x100x25 (![] : Fin 0 → Fin S4x100x25.rank)
  dot_S100x4096_S25x4096_S100x25_1_1_0_0_n_n_wf : DotDims.WF S100x4096 S25x4096 S100x25 [1] [1] [0] [0] [] []
  gather_S4x100x81_S4x25x1_S4x100x25_1_2_0_0_2_2_11001_wf : GatherDims.WF S4x100x81 S4x25x1 S4x100x25 [1] [2] [0] [2] [0] 2 ![1, 100, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x100x4096.size a ≤ S4x100x65536.size a
  hwx0_0 : ∀ i : grid0.Coords, EltTy.bits .f32 = 32 ∨ (Rect.block (s := S4x100x65536) S1x100x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x25x4096.size a ≤ S4x25x65536.size a
  hwx0_1 : ∀ i : grid0.Coords, EltTy.bits .f32 = 32 ∨ (Rect.block (s := S4x25x65536) S1x25x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x100x25.size a ≤ S4x100x25.size a
  hwx0_2 : ∀ i : grid0.Coords, EltTy.bits .f32 = 32 ∨ (Rect.block (s := S4x100x25) S1x100x25.size (cc0_transform_2 i) (hinb0_2 i)).WholeWords (EltTy.packing .f32)

variable [Facts₀]

def dot_S100x4096_S25x4096_S100x25_1_1_0_0_n_n : DotDims S100x4096 S25x4096 S100x25 where
  lhsContracting := [1]
  rhsContracting := [1]
  lhsNonContracting := [0]
  rhsNonContracting := [0]
  lhsBatch := []
  rhsBatch := []
  wf := dot_S100x4096_S25x4096_S100x25_1_1_0_0_n_n_wf
def gather_S4x100x81_S4x25x1_S4x100x25_1_2_0_0_2_2_11001 : GatherDims S4x100x81 S4x25x1 S4x100x25 where
  offsetDims := [1]
  collapsedSliceDims := [2]
  operandBatchingDims := [0]
  startIndicesBatchingDims := [0]
  startIndexMap := [2]
  indexVectorDim := 2
  sliceSizes := ![1, 100, 1]
  wf := gather_S4x100x81_S4x25x1_S4x100x25_1_2_0_0_2_2_11001_wf

abbrev win0_0 : Pipeline.Window sig grid0 :=
  Pipeline.Window.ofSpec (Memref.whole main_v0) S1x100x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x25x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x100x25.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x100x81 : Shape := ⟨3, ![4, 100, 81]⟩
abbrev S4x100x256x256 : Shape := ⟨4, ![4, 100, 256, 256]⟩
abbrev S4x25 : Shape := ⟨2, ![4, 25]⟩
abbrev S4x25x256x256 : Shape := ⟨4, ![4, 25, 256, 256]⟩
abbrev S4x100x65536 : Shape := ⟨3, ![4, 100, 65536]⟩
abbrev S4x25x65536 : Shape := ⟨3, ![4, 25, 65536]⟩
abbrev S_ : Shape := ⟨0, ![]⟩
abbrev S4x100 : Shape := ⟨2, ![4, 100]⟩
abbrev S4x100x1 : Shape := ⟨3, ![4, 100, 1]⟩
abbrev S4x1x25 : Shape := ⟨3, ![4, 1, 25]⟩
abbrev S4x25x1 : Shape := ⟨3, ![4, 25, 1]⟩
abbrev S1 : Shape := ⟨1, ![1]⟩
abbrev S1x1x1 : Shape := ⟨3, ![1, 1, 1]⟩
abbrev S4x100x25 : Shape := ⟨3, ![4, 100, 25]⟩

abbrev nBuf : Space → Nat
  | .hbm => 110
  | .vmem => 0
  | .smem => 0
  | _ => 0

abbrev bufTy : (tb : Table) → Fin (tcTables nBuf tb) → BufTy
  | .hbm, ⟨0, _⟩ => ⟨S4x100x81, .f32⟩
  | .hbm, ⟨1, _⟩ => ⟨S4x100x256x256, .f32⟩
  | .hbm, ⟨2, _⟩ => ⟨S4x25, .i32⟩
  | .hbm, ⟨3, _⟩ => ⟨S4x25x256x256, .f32⟩
  | .hbm, ⟨4, _⟩ => ⟨S4x100x65536, .f32⟩
  | .hbm, ⟨5, _⟩ => ⟨S4x25x65536, .f32⟩
  | .hbm, ⟨6, _⟩ => ⟨S_, .f32⟩
  | .hbm, ⟨7, _⟩ => ⟨S4x100, .f32⟩
  | .hbm, ⟨8, _⟩ => ⟨S_, .f32⟩
  | .hbm, ⟨9, _⟩ => ⟨S4x100, .f32⟩
  | .hbm, ⟨10, _⟩ => ⟨S4x100, .f32⟩
  | .hbm, ⟨11, _⟩ => ⟨S4x100x1, .f32⟩
  | .hbm, ⟨12, _⟩ => ⟨S4x100x81, .f32⟩
  | .hbm, ⟨13, _⟩ => ⟨S4x100x81, .f32⟩
  | .hbm, ⟨14, _⟩ => ⟨S4x100x81, .f32⟩
  | .hbm, ⟨15, _⟩ => ⟨S_, .f32⟩
  | .hbm, ⟨16, _⟩ => ⟨S4x100, .f32⟩
  | .hbm, ⟨17, _⟩ => ⟨S4x100x1, .f32⟩
  | .hbm, ⟨18, _⟩ => ⟨S4x100x81, .f32⟩
  | .hbm, ⟨19, _⟩ => ⟨S4x100x81, .f32⟩
  | .hbm, ⟨20, _⟩ => ⟨S4x1x25, .i32⟩
  | .hbm, ⟨21, _⟩ => ⟨S_, .i32⟩
  | .hbm, ⟨22, _⟩ => ⟨S4x1x25, .i32⟩
  | .hbm, ⟨23, _⟩ => ⟨S4x1x25, .i1⟩
  | .hbm, ⟨24, _⟩ => ⟨S_, .i32⟩
  | .hbm, ⟨25, _⟩ => ⟨S4x1x25, .i32⟩
  | .hbm, ⟨26, _⟩ => ⟨S4x1x25, .i32⟩
  | .hbm, ⟨27, _⟩ => ⟨S4x1x25, .i32⟩
  | .hbm, ⟨28, _⟩ => ⟨S4x25x1, .i32⟩
  | .hbm, ⟨29, _⟩ => ⟨S1, .i32⟩
  | .hbm, ⟨30, _⟩ => ⟨S_, .i32⟩
  | .hbm, ⟨31, _⟩ => ⟨S4x25x1, .i32⟩
  | .hbm, ⟨32, _⟩ => ⟨S4x25x1, .i1⟩
  | .hbm, ⟨33, _⟩ => ⟨S1x1x1, .i32⟩
  | .hbm, ⟨34, _⟩ => ⟨S4x25x1, .i32⟩
  | .hbm, ⟨35, _⟩ => ⟨S4x25x1, .i1⟩
  | .hbm, ⟨36, _⟩ => ⟨S4x25x1, .i1⟩
  | .hbm, ⟨37, _⟩ => ⟨S_, .i1⟩
  | .hbm, ⟨38, _⟩ => ⟨S4x25, .i1⟩
  | .hbm, ⟨39, _⟩ => ⟨S4x100x25, .f32⟩
  | .hbm, ⟨40, _⟩ => ⟨S4x100x25, .i1⟩
  | .hbm, ⟨41, _⟩ => ⟨S_, .f32⟩
  | .hbm, ⟨42, _⟩ => ⟨S4x100x25, .f32⟩
  | .hbm, ⟨43, _⟩ => ⟨S4x100x25, .f32⟩
  | .hbm, ⟨44, _⟩ => ⟨S4x100x25, .f32⟩
  | .hbm, ⟨45, _⟩ => ⟨S_, .f32⟩
  | .hbm, ⟨46, _⟩ => ⟨S4x100x65536, .f32⟩
  | .hbm, ⟨47, _⟩ => ⟨S4x100x65536, .f32⟩
  | .hbm, ⟨48, _⟩ => ⟨S4x100x65536, .f32⟩
  | .hbm, ⟨49, _⟩ => ⟨S4x100x65536, .f32⟩
  | .hbm, ⟨50, _⟩ => ⟨S4x100x65536, .i1⟩
  | .hbm, ⟨51, _⟩ => ⟨S4x100x65536, .f32⟩
  | .hbm, ⟨52, _⟩ => ⟨S4x100x65536, .f32⟩
  | .hbm, ⟨53, _⟩ => ⟨S4x100x65536, .f32⟩
  | .hbm, ⟨54, _⟩ => ⟨S4x100x65536, .f32⟩
  | .hbm, ⟨55, _⟩ => ⟨S4x100x65536, .f32⟩
  | .hbm, ⟨56, _⟩ => ⟨S4x100x65536, .f32⟩
  | .hbm, ⟨57, _⟩ => ⟨S4x100x65536, .f32⟩
  | .hbm, ⟨58, _⟩ => ⟨S4x100x65536, .f32⟩
  | .hbm, ⟨59, _⟩ => ⟨S_, .f32⟩
  | .hbm, ⟨60, _⟩ => ⟨S4x100, .f32⟩
  | .hbm, ⟨61, _⟩ => ⟨S_, .f32⟩
  | .hbm, ⟨62, _⟩ => ⟨S4x100, .f32⟩
  | .hbm, ⟨63, _⟩ => ⟨S4x100, .f32⟩
  | .hbm, ⟨64, _⟩ => ⟨S4x100x25, .f32⟩
  | .hbm, ⟨65, _⟩ => ⟨S4x100x1, .f32⟩
  | .hbm, ⟨66, _⟩ => ⟨S_, .f32⟩
  | .hbm, ⟨67, _⟩ => ⟨S4x100x25, .f32⟩
  | .hbm, ⟨68, _⟩ => ⟨S4x100x25, .f32⟩
  | .hbm, ⟨69, _⟩ => ⟨S4x100x25, .f32⟩
  | .hbm, ⟨70, _⟩ => ⟨S4x100x25, .f32⟩
  | .hbm, ⟨71, _⟩ => ⟨S4x100x65536, .f32⟩
  | .hbm, ⟨72, _⟩ => ⟨S4x100x65536, .f32⟩
  | .hbm, ⟨73, _⟩ => ⟨S_, .f32⟩
  | .hbm, ⟨74, _⟩ => ⟨S4x100x65536, .f32⟩
  | .hbm, ⟨75, _⟩ => ⟨S4x100x65536, .f32⟩
  | .hbm, ⟨76, _⟩ => ⟨S_, .f32⟩
  | .hbm, ⟨77, _⟩ => ⟨S4x100x65536, .f32⟩
  | .hbm, ⟨78, _⟩ => ⟨S4x100x65536, .f32⟩
  | .hbm, ⟨79, _⟩ => ⟨S4x100x25, .f32⟩
  | .hbm, ⟨80, _⟩ => ⟨S_, .f32⟩
  | .hbm, ⟨81, _⟩ => ⟨S4x100x25, .f32⟩
  | .hbm, ⟨82, _⟩ => ⟨S4x100x25, .f32⟩
  | .hbm, ⟨83, _⟩ => ⟨S_, .f32⟩
  | .hbm, ⟨84, _⟩ => ⟨S4x100, .f32⟩
  | .hbm, ⟨85, _⟩ => ⟨S4x100x1, .f32⟩
  | .hbm, ⟨86, _⟩ => ⟨S_, .f32⟩
  | .hbm, ⟨87, _⟩ => ⟨S4x25, .f32⟩
  | .hbm, ⟨88, _⟩ => ⟨S4x1x25, .f32⟩
  | .hbm, ⟨89, _⟩ => ⟨S4x100x25, .f32⟩
  | .hbm, ⟨90, _⟩ => ⟨S4x100x25, .f32⟩
  | .hbm, ⟨91, _⟩ => ⟨S4x100x25, .f32⟩
  | .hbm, ⟨92, _⟩ => ⟨S_, .f32⟩
  | .hbm, ⟨93, _⟩ => ⟨S4x100x25, .f32⟩
  | .hbm, ⟨94, _⟩ => ⟨S4x100x25, .f32⟩
  | .hbm, ⟨95, _⟩ => ⟨S4x100x25, .f32⟩
  | .hbm, ⟨96, _⟩ => ⟨S_, .f32⟩
  | .hbm, ⟨97, _⟩ => ⟨S4x100x25, .f32⟩
  | .hbm, ⟨98, _⟩ => ⟨S4x100x25, .f32⟩
  | .hbm, ⟨99, _⟩ => ⟨S_, .f32⟩
  | .hbm, ⟨100, _⟩ => ⟨S4x100x25, .f32⟩
  | .hbm, ⟨101, _⟩ => ⟨S4x100x25, .f32⟩
  | .hbm, ⟨102, _⟩ => ⟨S_, .f32⟩
  | .hbm, ⟨103, _⟩ => ⟨S4x100x25, .f32⟩
  | .hbm, ⟨104, _⟩ => ⟨S4x100x25, .f32⟩
  | .hbm, ⟨105, _⟩ => ⟨S4x100x25, .f32⟩
  | .hbm, ⟨106, _⟩ => ⟨S_, .f32⟩
  | .hbm, ⟨107, _⟩ => ⟨S4x100x25, .f32⟩
  | .hbm, ⟨108, _⟩ => ⟨S4x100x25, .f32⟩
  | .hbm, ⟨109, _⟩ => ⟨S4x100x25, .f32⟩
  | _, _ => ⟨S4x100x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v14 : Ref sig .tc := ⟨.hbm, 43, rfl⟩
abbrev main_v15 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_v16 : Ref sig .tc := ⟨.hbm, 58, rfl⟩
abbrev main_cst_2 : Ref sig .tc := ⟨.hbm, 59, rfl⟩
abbrev main_v17 : Ref sig .tc := ⟨.hbm, 60, rfl⟩
abbrev main_cst_3 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_4 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_cst_5 : Ref sig .tc := ⟨.hbm, 73, rfl⟩
abbrev main_v28 : Ref sig .tc := ⟨.hbm, 74, rfl⟩
abbrev main_v29 : Ref sig .tc := ⟨.hbm, 75, rfl⟩
abbrev main_cst_6 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_cst_7 : Ref sig .tc := ⟨.hbm, 80, rfl⟩
abbrev main_v33 : Ref sig .tc := ⟨.hbm, 81, rfl⟩
abbrev main_v34 : Ref sig .tc := ⟨.hbm, 82, rfl⟩
abbrev main_cst_8 : Ref sig .tc := ⟨.hbm, 83, rfl⟩
abbrev main_v35 : Ref sig .tc := ⟨.hbm, 84, rfl⟩
abbrev main_v36 : Ref sig .tc := ⟨.hbm, 85, rfl⟩
abbrev main_cst_9 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_cst_10 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_cst_11 : Ref sig .tc := ⟨.hbm, 96, rfl⟩
abbrev main_v45 : Ref sig .tc := ⟨.hbm, 97, rfl⟩
abbrev main_v46 : Ref sig .tc := ⟨.hbm, 98, rfl⟩
abbrev main_cst_12 : Ref sig .tc := ⟨.hbm, 99, rfl⟩
abbrev main_v47 : Ref sig .tc := ⟨.hbm, 100, rfl⟩
abbrev main_v48 : Ref sig .tc := ⟨.hbm, 101, rfl⟩
abbrev main_cst_13 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_cst_14 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩

abbrev nD : Nat := 1
abbrev τ : Topo := Topo.v7x

variable {F : FTy → Type} [FloatOps F]

class Facts₀ : Prop where
  shapeCasts_S4x100x256x256_S4x100x65536 : S4x100x256x256.ShapeCasts S4x100x65536
  shapeCasts_S4x25x256x256_S4x25x65536 : S4x25x256x256.ShapeCasts S4x25x65536
  reducesTo_S4x100x81_S4x100_d2 : S4x100x81.ReducesTo [2] S4x100
  h_S_ : 0 < S_.numel
  bcast_S_S4x100 : S_.BroadcastsInDim S4x100 (![] : Fin 0 → Fin S4x100.rank)
  bcast_S4x100_S4x100x1_0_1 : S4x100.BroadcastsInDim S4x100x1 (![0, 1] : Fin 2 → Fin S4x100x1.rank)
  bcast_S4x100x1_S4x100x81_0_1_2 : S4x100x1.BroadcastsInDim S4x100x81 (![0, 1, 2] : Fin 3 → Fin S4x100x81.rank)
  bcast_S4x25_S4x1x25_0_2 : S4x25.BroadcastsInDim S4x1x25 (![0, 2] : Fin 2 → Fin S4x1x25.rank)
  bcast_S_S4x1x25 : S_.BroadcastsInDim S4x1x25 (![] : Fin 0 → Fin S4x1x25.rank)
  shapeCasts_S4x1x25_S4x25x1 : S4x1x25.ShapeCasts S4x25x1
  bcast_S_S4x25x1 : S_.BroadcastsInDim S4x25x1 (![] : Fin 0 → Fin S4x25x1.rank)
  bcast_S1_S1x1x1_2 : S1.BroadcastsInDim S1x1x1 (![2] : Fin 1 → Fin S1x1x1.rank)
  bcast_S1x1x1_S4x25x1_0_1_2 : S1x1x1.BroadcastsInDim S4x25x1 (![0, 1, 2] : Fin 3 → Fin S4x25x1.rank)
  reducesTo_S4x25x1_S4x25_d2 : S4x25x1.ReducesTo [2] S4x25
  bcast_S4x25_S4x100x25_0_2 : S4x25.BroadcastsInDim S4x100x25 (![0, 2] : Fin 2 → Fin S4x100x25.rank)
  bcast_S_S4x100x25 : S_.BroadcastsInDim S4x100x25 (![] : Fin 0 → Fin S4x100x25.rank)
  bcast_S_S4x100x65536 : S_.BroadcastsInDim S4x100x65536 (![] : Fin 0 → Fin S4x100x65536.rank)
  reducesTo_S4x100x65536_S4x100_d2 : S4x100x65536.ReducesTo [2] S4x100
  bcast_S4x100x1_S4x100x25_0_1_2 : S4x100x1.BroadcastsInDim S4x100x25 (![0, 1, 2] : Fin 3 → Fin S4x100x25.rank)
  reducesTo_S4x25x65536_S4x25_d2 : S4x25x65536.ReducesTo [2] S4x25
  bcast_S4x1x25_S4x100x25_0_1_2 : S4x1x25.BroadcastsInDim S4x100x25 (![0, 1, 2] : Fin 3 → Fin S4x100x25.rank)
  gather_S4x100x81_S4x25x1_S4x100x25_1_2_0_0_2_2_11001_wf : GatherDims.WF S4x100x81 S4x25x1 S4x100x25 [1] [2] [0] [2] [0] 2 ![1, 100, 1]
  dot_S4x100x65536_S4x25x65536_S4x100x25_2_2_1_1_0_0_wf : DotDims.WF S4x100x65536 S4x25x65536 S4x100x25 [2] [2] [1] [1] [0] [0]

variable [Facts₀]

def gather_S4x100x81_S4x25x1_S4x100x25_1_2_0_0_2_2_11001 : GatherDims S4x100x81 S4x25x1 S4x100x25 where
  offsetDims := [1]
  collapsedSliceDims := [2]
  operandBatchingDims := [0]
  startIndicesBatchingDims := [0]
  startIndexMap := [2]
  indexVectorDim := 2
  sliceSizes := ![1, 100, 1]
  wf := gather_S4x100x81_S4x25x1_S4x100x25_1_2_0_0_2_2_11001_wf
def dot_S4x100x65536_S4x25x65536_S4x100x25_2_2_1_1_0_0 : DotDims S4x100x65536 S4x25x65536 S4x100x25 where
  lhsContracting := [2]
  rhsContracting := [2]
  lhsNonContracting := [1]
  rhsNonContracting := [1]
  lhsBatch := [0]
  rhsBatch := [0]
  wf := dot_S4x100x65536_S4x25x65536_S4x100x25_2_2_1_1_0_0_wf

class Facts : Prop extends Facts₀ where

variable [Facts]
-- ==== Proof.LibBlockSum.lean ====
/-
  Two regrouping laws, stated generally.

  (1) A sum taken block by block.  Given `a · b` terms indexed by the natural numbers below `a · b`, cut them
  into `a` blocks of `b` consecutive terms, so that term `r` of block `t` is term `b·t + r` of the whole.
  In any commutative additive monoid the sum of the `a` block sums is the sum of all the terms.  On the
  extended reals this needs no finiteness assumption: their addition is commutative and associative
  (the sum of `+∞` and `−∞` is a fixed value whatever the order).

  (2) Scaling a square.  On the extended reals `c · (d · d) = (c · d) · d` for every `c` and `d`, infinite ones
  included: multiplication there is associative.
-/
import Mathlib.Data.EReal.Inv
import Mathlib.Algebra.BigOperators.Fin
import Mathlib.Logic.Equiv.Fin.Basic

namespace Cert.LibBlockSum

/-- The sum of `a` block sums of `b` consecutive terms is the sum of all `a · b` terms:
    `∑_{t < a} ∑_{r < b} g (b·t + r) = ∑_{q < a·b} g q`. -/
theorem sum_blocks {M : Type*} [AddCommMonoid M] (a b : ℕ) (g : ℕ → M) :
    ∑ t ∈ Finset.range a, ∑ r : Fin b, g (b * t + r.val) = ∑ q : Fin (a * b), g q.val :=
  calc ∑ t ∈ Finset.range a, ∑ r : Fin b, g (b * t + r.val)
      = ∑ t : Fin a, ∑ r : Fin b, g (b * t.val + r.val) :=
        (Fin.sum_univ_eq_sum_range (fun t => ∑ r : Fin b, g (b * t + r.val)) a).symm
    _ = ∑ p : Fin a × Fin b, g (b * p.1.val + p.2.val) :=
        (Fintype.sum_prod_type' (fun (t : Fin a) (r : Fin b) => g (b * t.val + r.val))).symm
    _ = ∑ q : Fin (a * b), g q.val :=
        Fintype.sum_equiv finProdFinEquiv _ _ fun p =>
          congrArg g (by rw [finProdFinEquiv_apply_val]; exact Nat.add_comm _ _)

/-- Scaling a square is scaling one factor and then multiplying by the other: `c · (d · d) = (c · d) · d`. -/
theorem scale_sq (c d : EReal) : c * (d * d) = c * d * d := (mul_assoc c d d).symm

end Cert.LibBlockSum
-- ==== Proof.MaskCostSpec.lean ====
/-
  The pairwise mask-matching cost, as mathematics on the extended reals.

  For one batch entry there are 100 query rows of 65536 mask logits `x q k` and 25 target rows of 65536 mask
  values `y t k`. Five sums over the pixels `k` enter the cost of pairing query `q` with target `t`:
    the sum of softplus(x q k), the sum of sigmoid(x q k), the sum of y t k,
    the inner product of x q · with y t ·, and the inner product of sigmoid(x q ·) with y t ·.
  From them: the mean binary cross-entropy  sp / P − xy / P  (P the number of pixels), the dice cost
  1 − 2·nm / (sg + ys + ε), and their sum, the mask cost. The classification cost `c` (minus the softmax
  probability of the target's label) is added to it.

  Two things are proved here.
  (1) Each of the five sums may be taken sixteen chunks of 4096 pixels at a time, starting from zero: addition of
      extended reals is commutative and associative, so no finiteness is needed.
  (2) The two programs add the three costs in different groupings and with different unit factors:
      (1·c + 0) + (bce + dice)  against  (1·c + 1·bce) + 1·dice.  These agree for all extended reals, by associativity
      of addition and 1·z = z.
-/
import Idealize.ShloMosaic.PureOps.Ideal
import Idealize.ShloMosaic.PureOps.Ideal.Laws
import Idealize.ShloMosaic.Lib.IdealHost
import Idealize.ShloMosaic.Lib.ValueIdx
import proofs.«167477_j30846455119893_1_alg».proof.Proof.LibBlockSum

noncomputable section

namespace Cert.MaskCost

open Idealize.ShloMosaic

/-! ## The elementwise functions and the constants -/

/-- softplus in its overflow-safe form: max(x, 0) + log(1 + e^(−|x|)), with |x| = max(x, −x). -/
def softplus (x : EReal) : EReal := max x 0 + Ideal.log1p (Ideal.exp (-(max x (-x))))

/-- The logistic sigmoid 1 / (1 + e^(−x)). -/
def sigmoid (x : EReal) : EReal := Ideal.logistic x

/-- The number of pixels, 65536, as the float both programs divide by. -/
def nPix : EReal := Ideal.ofBits .f32 0x47800000#32
/-- The dice denominator's ε, the float nearest 10⁻⁶. -/
def eps : EReal := Ideal.ofBits .f32 0x358637BD#32
/-- The float 2. -/
def two : EReal := Ideal.ofBits .f32 0x40000000#32
/-- The float 1. -/
def one : EReal := Ideal.ofBits .f32 0x3F800000#32
/-- The float 0. -/
def zero : EReal := Ideal.ofBits .f32 0x00000000#32

theorem one_eq : one = 1 := Ideal.ofBits_one_f32
theorem zero_eq : zero = 0 := Ideal.ofBits_zero_f32

/-! ## The cost from the five sums -/

/-- Mean binary cross-entropy from the softplus sum and the inner product with the target. -/
def bce (sp xy : EReal) : EReal := Ideal.div sp nPix - Ideal.div xy nPix

/-- Dice cost from the sigmoid sum, the target sum and the inner product of sigmoid with the target. -/
def dice (sg ys nm : EReal) : EReal := one - Ideal.div (two * nm) (sg + ys + eps)

/-- The mask cost: cross-entropy plus dice. -/
def maskCost (sp xy sg ys nm : EReal) : EReal := bce sp xy + dice sg ys nm

/-- The total as the kernel's surrounding program adds it: (1·c + 0) + mask cost. -/
def totalGrouped (c mc : EReal) : EReal := (one * c + zero) + mc

/-- The total as the reference adds it: (1·c + 1·bce) + 1·dice. -/
def totalSpread (c sp xy sg ys nm : EReal) : EReal := (one * c + one * bce sp xy) + one * dice sg ys nm

/-- The two groupings give one value, for all extended reals. -/
theorem totalGrouped_eq_totalSpread (c sp xy sg ys nm : EReal) :
    totalGrouped c (maskCost sp xy sg ys nm) = totalSpread c sp xy sg ys nm := by
  unfold totalGrouped totalSpread maskCost
  rw [one_eq, zero_eq, one_mul, one_mul, one_mul, add_zero, add_assoc]

/-! ## Sums taken a chunk at a time -/

/-- The partial sum of the first `n` chunks of 4096 consecutive terms of `g`. -/
def chunks (g : ℕ → EReal) (n : ℕ) : EReal := ∑ j ∈ Finset.range n, ∑ r : Fin 4096, g (4096 * j + r.val)

theorem chunks_zero (g : ℕ → EReal) : chunks g 0 = 0 := Finset.sum_range_zero _

/-- One more chunk: the partial sum so far plus the chunk's own sum. -/
theorem chunks_succ (g : ℕ → EReal) (n : ℕ) :
    chunks g (n + 1) = chunks g n + ∑ r : Fin 4096, g (4096 * n + r.val) := Finset.sum_range_succ _ n

/-- The first chunk onto zero. -/
theorem chunks_one (g : ℕ → EReal) : chunks g 1 = 0 + ∑ r : Fin 4096, g (4096 * 0 + r.val) := by
  rw [chunks_succ, chunks_zero]

/-- Sixteen chunks of 4096 are all 65536 terms. -/
theorem chunks_all (g : ℕ → EReal) : chunks g 16 = ∑ k : Fin 65536, g k.val :=
  Cert.LibBlockSum.sum_blocks 16 4096 g

/-! ## The cost as arrays

`X` holds the mask logits as [4, 100, 65536] (batch, query, pixel), `Y` the target masks as [4, 25, 65536]
(batch, target, pixel), `cc` the classification cost as [4, 100, 25]. -/

open ValueIdx

/-- Pixel `k` of row `(b, q)`, for a natural number `k`; zero past the row's end (no sum below reaches there). -/
def px {n : ℕ} (X : (⟨3, ![4, n, 65536]⟩ : Shape).Idx → EReal) (b : Fin 4) (q : Fin n) (k : ℕ) : EReal :=
  if h : k < 65536 then X (ix3 b q ⟨k, h⟩) else 0

theorem px_lt {n : ℕ} (X : (⟨3, ![4, n, 65536]⟩ : Shape).Idx → EReal) (b : Fin 4) (q : Fin n) {k : ℕ} (h : k < 65536) :
    px X b q k = X (ix3 b q ⟨k, h⟩) := dif_pos h

theorem px_fin {n : ℕ} (X : (⟨3, ![4, n, 65536]⟩ : Shape).Idx → EReal) (b : Fin 4) (q : Fin n) (k : Fin 65536) :
    px X b q k.val = X (ix3 b q k) := px_lt X b q k.isLt

section summands
variable (X : (⟨3, ![4, 100, 65536]⟩ : Shape).Idx → EReal) (Y : (⟨3, ![4, 25, 65536]⟩ : Shape).Idx → EReal)

/-- softplus of the logit at pixel `k`. -/
def spT (b : Fin 4) (q : Fin 100) (k : ℕ) : EReal := softplus (px X b q k)
/-- sigmoid of the logit at pixel `k`. -/
def sgT (b : Fin 4) (q : Fin 100) (k : ℕ) : EReal := sigmoid (px X b q k)
/-- the target at pixel `k`. -/
def ysT (b : Fin 4) (t : Fin 25) (k : ℕ) : EReal := px Y b t k
/-- logit times target at pixel `k`. -/
def xyT (b : Fin 4) (q : Fin 100) (t : Fin 25) (k : ℕ) : EReal := px X b q k * px Y b t k
/-- sigmoid of the logit times target at pixel `k`. -/
def nmT (b : Fin 4) (q : Fin 100) (t : Fin 25) (k : ℕ) : EReal := sigmoid (px X b q k) * px Y b t k

/-- The mask cost of pairing query `q` with target `t` in batch entry `b`, from the five whole-row sums. -/
def maskAt (b : Fin 4) (q : Fin 100) (t : Fin 25) : EReal :=
  maskCost (∑ k : Fin 65536, spT X b q k.val) (∑ k : Fin 65536, xyT X Y b q t k.val) (∑ k : Fin 65536, sgT X b q k.val)
    (∑ k : Fin 65536, ysT Y b t k.val) (∑ k : Fin 65536, nmT X Y b q t k.val)

/-- The mask cost as a [4, 100, 25] array. -/
def maskArr : (⟨3, ![4, 100, 25]⟩ : Shape).Idx → EReal := fun i => maskAt X Y (i 0) (i 1) (i 2)

/-- The total cost, grouped (1·c + 0) + mask cost. -/
def totalGroupedArr (cc : (⟨3, ![4, 100, 25]⟩ : Shape).Idx → EReal) : (⟨3, ![4, 100, 25]⟩ : Shape).Idx → EReal :=
  fun i => totalGrouped (cc i) (maskArr X Y i)

/-- The total cost, spread (1·c + 1·bce) + 1·dice. -/
def totalSpreadArr (cc : (⟨3, ![4, 100, 25]⟩ : Shape).Idx → EReal) : (⟨3, ![4, 100, 25]⟩ : Shape).Idx → EReal :=
  fun i => totalSpread (cc i) (∑ k : Fin 65536, spT X (i 0) (i 1) k.val) (∑ k : Fin 65536, xyT X Y (i 0) (i 1) (i 2) k.val)
    (∑ k : Fin 65536, sgT X (i 0) (i 1) k.val) (∑ k : Fin 65536, ysT Y (i 0) (i 2) k.val) (∑ k : Fin 65536, nmT X Y (i 0) (i 1) (i 2) k.val)

/-- The two arrays are one. -/
theorem totalGroupedArr_eq_totalSpreadArr (cc : (⟨3, ![4, 100, 25]⟩ : Shape).Idx → EReal) :
    totalGroupedArr X Y cc = totalSpreadArr X Y cc :=
  funext fun _ => totalGrouped_eq_totalSpread _ _ _ _ _ _

end summands

end Cert.MaskCost

end
-- ==== Proof.RefCost.lean ====
/-
  The reference program's result is the spread total of the mask-matching cost.

  The reference reshapes the mask logits to X : [4, 100, 65536] and the target masks to Y : [4, 25, 65536] and then
  works row by row. For batch entry b, query q and target t it forms
    sp = Σ_k softplus(X b q k),   sg = Σ_k sigmoid(X b q k),   ys = Σ_k Y b t k,
    xy = Σ_k X b q k · Y b t k,   nm = Σ_k sigmoid(X b q k) · Y b t k,
  each sum starting from the float zero, then  bce = sp / P − xy / P  and  dice = 1 − (2 · nm) / (sg + ys + ε),
  and returns  (1 · c + 1 · bce) + 1 · dice  with c the classification cost at (b, q, t).

  Read at the extended reals this is, index by index, `Cert.MaskCost.totalSpreadArr X Y c`:
  * the reference's softplus is  select(d ≠ d, x + 0, max(x, 0) + log1p(exp(−|d|)))  with d = x − 0; an extended real is
    never different from itself, so the guard is false and, with x − 0 = x and |x| = max(x, −x), the value is
    max(x, 0) + log1p(exp(−max(x, −x)));
  * the reference's sigmoid 1 / (1 + exp(−x)) is the logistic function by definition;
  * every sum's initial value is zero, and 0 + s = s;
  * the broadcasts only repeat a row sum along the axis it does not depend on, so reading them at (b, q, t) gives the
    row sum at (b, q) or (b, t).
  No law beyond 0 + s = s and x − 0 = x is used, so nothing here needs the inputs to be finite. The classification
  cost stays the reference's own stage: it enters both sides as the same term.
-/
import proofs.«167477_j30846455119893_1_alg».proof.Proof.Gen.ReferenceIdeal.Read
import proofs.«167477_j30846455119893_1_alg».proof.Proof.MaskCostSpec

noncomputable section

namespace Cert.RefCost

open Idealize.ShloMosaic Idealize.ShloMosaic.ValueIdx Cert.ReferenceIdeal Cert.ReferenceIdeal.Read Cert.MaskCost

/-! ## The two elementwise functions -/

/-- An extended real is never different from itself: the "unordered or not equal" comparison of `d` with `d` is false. -/
theorem cmp_une_self (d : EReal) : Ideal.cmp .une d d = 0#1 := by
  unfold Ideal.cmp
  simp

/-- The reference's softplus stage at a pixel is `softplus` of the logit there: the self-comparison guard is false,
    `x - 0 = x`, and the absolute value is `max x (-x)`. -/
theorem softplus_stage (x1 : (⟨S4x100x256x256, .f32⟩ : BufTy).Contents (Elt Ideal)) (p : S4x100x65536.Idx) :
    val_main_v16 (F := Ideal) x1 p = softplus (val_main_v0 (F := Ideal) x1 p) := by
  simp only [val_main_v16_apply, val_main_call1_v4_apply, val_main_call1_v6_apply, val_main_call1_v11_apply, val_main_call1_v1_apply,
    val_main_call1_v10_apply, val_main_call1_v9_apply, val_main_call1_v8_apply, val_main_call1_v7_apply,
    val_main_call1_v3_apply, val_main_call1_v0_apply, val_main_call1_v2_apply, val_main_call1_v5_apply, val_main_call1_cst_apply]
  generalize val_main_v0 (F := Ideal) x1 p = x
  simp only [Ideal.ofBits_def, Ideal.ofBits_zero_f32, Ideal.subf_def, Ideal.addf_def, Ideal.maximumf_def, Ideal.cmpf_def,
    Ideal.hostUnary_log1p_def, Ideal.hostUnary_exp_def, Ideal.hostNegf_def, Ideal.hostAbsf_def, Ideal.absf_def, Ideal.negf_def,
    sub_zero, cmp_une_self, ValueIdx.select_zero]
  rfl

/-- The reference's sigmoid stage `1 / (1 + exp (-x))` at a pixel is the logistic function of the logit there. -/
theorem sigmoid_stage (x1 : (⟨S4x100x256x256, .f32⟩ : BufTy).Contents (Elt Ideal)) (p : S4x100x65536.Idx) :
    val_main_v31 (F := Ideal) x1 p = sigmoid (val_main_v0 (F := Ideal) x1 p) := by
  simp only [val_main_v31_apply, val_main_v30_apply, val_main_v29_apply, val_main_v28_apply, val_main_v27_apply, val_main_v26_apply,
    val_main_cst_5_apply, val_main_cst_6_apply]
  generalize val_main_v0 (F := Ideal) x1 p = x
  simp only [Ideal.ofBits_def, Ideal.ofBits_one_f32, Ideal.hostDivf_def, Ideal.addf_def, Ideal.hostUnary_exp_def, Ideal.hostNegf_def, Ideal.negf_def]
  rfl

/-! ## Where each reduction and each broadcast reads

A row sum at `(b, q)` reads pixel `k` of row `(b, q)`; the two inner products at `(b, q, t)` read pixel `k` of the
logit row `(b, q)` and of the target row `(b, t)`; a row sum broadcast to `(b, q, t)` is read at `(b, q)` or `(b, t)`. -/

theorem idx17 (b : Fin 4) (q : Fin 100) (k : Fin 65536) : idx_main_v17 (ix2 b q) k = ix3 b q k := funext fun a => Fin.ext (by match a with | ⟨0, _⟩ => rfl | ⟨1, _⟩ => rfl | ⟨2, _⟩ => rfl)
theorem idx35 (b : Fin 4) (q : Fin 100) (k : Fin 65536) : idx_main_v35 (ix2 b q) k = ix3 b q k := funext fun a => Fin.ext (by match a with | ⟨0, _⟩ => rfl | ⟨1, _⟩ => rfl | ⟨2, _⟩ => rfl)
theorem idx37 (b : Fin 4) (t : Fin 25) (k : Fin 65536) : idx_main_v37 (ix2 b t) k = ix3 b t k := funext fun a => Fin.ext (by match a with | ⟨0, _⟩ => rfl | ⟨1, _⟩ => rfl | ⟨2, _⟩ => rfl)
theorem lidx20 (b : Fin 4) (q : Fin 100) (t : Fin 25) (k : Fin 65536) : lidx_main_v20 (ix3 b q t) k = ix3 b q k := funext fun a => Fin.ext (by match a with | ⟨0, _⟩ => rfl | ⟨1, _⟩ => rfl | ⟨2, _⟩ => rfl)
theorem ridx20 (b : Fin 4) (q : Fin 100) (t : Fin 25) (k : Fin 65536) : ridx_main_v20 (ix3 b q t) k = ix3 b t k := funext fun a => Fin.ext (by match a with | ⟨0, _⟩ => rfl | ⟨1, _⟩ => rfl | ⟨2, _⟩ => rfl)
theorem lidx32 (b : Fin 4) (q : Fin 100) (t : Fin 25) (k : Fin 65536) : lidx_main_v32 (ix3 b q t) k = ix3 b q k := funext fun a => Fin.ext (by match a with | ⟨0, _⟩ => rfl | ⟨1, _⟩ => rfl | ⟨2, _⟩ => rfl)
theorem ridx32 (b : Fin 4) (q : Fin 100) (t : Fin 25) (k : Fin 65536) : ridx_main_v32 (ix3 b q t) k = ix3 b t k := funext fun a => Fin.ext (by match a with | ⟨0, _⟩ => rfl | ⟨1, _⟩ => rfl | ⟨2, _⟩ => rfl)
theorem idx24 (b : Fin 4) (q : Fin 100) (t : Fin 25) : idx_main_v21 (idx_main_v24 (ix3 b q t)) = ix2 b q := funext fun a => Fin.ext (by match a with | ⟨0, _⟩ => rfl | ⟨1, _⟩ => rfl)
theorem idx39 (b : Fin 4) (q : Fin 100) (t : Fin 25) : idx_main_v36 (idx_main_v39 (ix3 b q t)) = ix2 b q := funext fun a => Fin.ext (by match a with | ⟨0, _⟩ => rfl | ⟨1, _⟩ => rfl)
theorem idx40 (b : Fin 4) (q : Fin 100) (t : Fin 25) : idx_main_v38 (idx_main_v40 (ix3 b q t)) = ix2 b t := funext fun a => Fin.ext (by match a with | ⟨0, _⟩ => rfl | ⟨1, _⟩ => rfl)

/-! ## The five pixel sums -/

/-- The softplus row sum. -/
theorem sp_sum (x1 : (⟨S4x100x256x256, .f32⟩ : BufTy).Contents (Elt Ideal)) (b : Fin 4) (q : Fin 100) :
    val_main_v17 (F := Ideal) x1 (ix2 b q) = ∑ k : Fin 65536, spT (val_main_v0 (F := Ideal) x1) b q k.val := by
  rw [val_main_v17_apply, val_main_cst_2_apply, Ideal.ofBits_def, Ideal.ofBits_zero_f32, zero_add]
  refine Finset.sum_congr rfl fun k _ => ?_
  rw [softplus_stage, idx17]
  unfold spT
  rw [px_fin]

/-- The sigmoid row sum. -/
theorem sg_sum (x1 : (⟨S4x100x256x256, .f32⟩ : BufTy).Contents (Elt Ideal)) (b : Fin 4) (q : Fin 100) :
    val_main_v35 (F := Ideal) x1 (ix2 b q) = ∑ k : Fin 65536, sgT (val_main_v0 (F := Ideal) x1) b q k.val := by
  rw [val_main_v35_apply, val_main_cst_8_apply, Ideal.ofBits_def, Ideal.ofBits_zero_f32, zero_add]
  refine Finset.sum_congr rfl fun k _ => ?_
  rw [sigmoid_stage, idx35]
  unfold sgT
  rw [px_fin]

/-- The target row sum. -/
theorem ys_sum (x3 : (⟨S4x25x256x256, .f32⟩ : BufTy).Contents (Elt Ideal)) (b : Fin 4) (t : Fin 25) :
    val_main_v37 (F := Ideal) x3 (ix2 b t) = ∑ k : Fin 65536, ysT (val_main_v1 (F := Ideal) x3) b t k.val := by
  rw [val_main_v37_apply, val_main_cst_9_apply, Ideal.ofBits_def, Ideal.ofBits_zero_f32, zero_add]
  refine Finset.sum_congr rfl fun k _ => ?_
  rw [idx37]
  unfold ysT
  rw [px_fin]

/-- The inner product of a logit row with a target row. -/
theorem xy_sum (x1 : (⟨S4x100x256x256, .f32⟩ : BufTy).Contents (Elt Ideal)) (x3 : (⟨S4x25x256x256, .f32⟩ : BufTy).Contents (Elt Ideal)) (b : Fin 4) (q : Fin 100) (t : Fin 25) :
    val_main_v20 (F := Ideal) x1 x3 (ix3 b q t)
      = ∑ k : Fin 65536, xyT (val_main_v0 (F := Ideal) x1) (val_main_v1 (F := Ideal) x3) b q t k.val := by
  rw [val_main_v20_apply]
  refine Finset.sum_congr rfl fun k _ => ?_
  rw [lidx20, ridx20]
  unfold xyT
  rw [px_fin, px_fin]

/-- The inner product of a sigmoid row with a target row. -/
theorem nm_sum (x1 : (⟨S4x100x256x256, .f32⟩ : BufTy).Contents (Elt Ideal)) (x3 : (⟨S4x25x256x256, .f32⟩ : BufTy).Contents (Elt Ideal)) (b : Fin 4) (q : Fin 100) (t : Fin 25) :
    val_main_v32 (F := Ideal) x1 x3 (ix3 b q t)
      = ∑ k : Fin 65536, nmT (val_main_v0 (F := Ideal) x1) (val_main_v1 (F := Ideal) x3) b q t k.val := by
  rw [val_main_v32_apply]
  refine Finset.sum_congr rfl fun k _ => ?_
  rw [sigmoid_stage, lidx32, ridx32]
  unfold nmT
  rw [px_fin, px_fin]

/-! ## The two costs and their total -/

/-- The reference's cross-entropy stage: the softplus sum over `P` minus the inner product over `P`. -/
theorem bce_stage (x1 : (⟨S4x100x256x256, .f32⟩ : BufTy).Contents (Elt Ideal)) (x3 : (⟨S4x25x256x256, .f32⟩ : BufTy).Contents (Elt Ideal)) (b : Fin 4) (q : Fin 100) (t : Fin 25) :
    val_main_v25 (F := Ideal) x1 x3 (ix3 b q t)
      = bce (∑ k : Fin 65536, spT (val_main_v0 (F := Ideal) x1) b q k.val)
          (∑ k : Fin 65536, xyT (val_main_v0 (F := Ideal) x1) (val_main_v1 (F := Ideal) x3) b q t k.val) := by
  rw [val_main_v25_apply, val_main_v24_apply, val_main_v21_apply, idx24, val_main_v19_apply, val_main_v18_apply, val_main_cst_3_apply,
    val_main_v23_apply, val_main_v22_apply, val_main_cst_4_apply, sp_sum, xy_sum]
  rfl

/-- The reference's dice stage: `1 - (2 * nm) / (sg + ys + ε)`. -/
theorem dice_stage (x1 : (⟨S4x100x256x256, .f32⟩ : BufTy).Contents (Elt Ideal)) (x3 : (⟨S4x25x256x256, .f32⟩ : BufTy).Contents (Elt Ideal)) (b : Fin 4) (q : Fin 100) (t : Fin 25) :
    val_main_v46 (F := Ideal) x1 x3 (ix3 b q t)
      = dice (∑ k : Fin 65536, sgT (val_main_v0 (F := Ideal) x1) b q k.val)
          (∑ k : Fin 65536, ysT (val_main_v1 (F := Ideal) x3) b t k.val)
          (∑ k : Fin 65536, nmT (val_main_v0 (F := Ideal) x1) (val_main_v1 (F := Ideal) x3) b q t k.val) := by
  rw [val_main_v46_apply, val_main_v45_apply, val_main_cst_11_apply, val_main_v44_apply, val_main_v34_apply, val_main_v33_apply,
    val_main_cst_7_apply, val_main_v43_apply, val_main_v42_apply, val_main_cst_10_apply, val_main_v41_apply,
    val_main_v39_apply, val_main_v36_apply, idx39, val_main_v40_apply, val_main_v38_apply, idx40, sg_sum, ys_sum, nm_sum]
  rfl

/-- The reference's result array is the spread total `(1 * c + 1 * bce) + 1 * dice` of the classification-cost stage
    and the five whole-row sums of the two reshaped inputs. -/
theorem ref_total (x0 : (⟨S4x100x81, .f32⟩ : BufTy).Contents (Elt Ideal)) (x1 : (⟨S4x100x256x256, .f32⟩ : BufTy).Contents (Elt Ideal)) (x2 : (⟨S4x25, .i32⟩ : BufTy).Contents (Elt Ideal)) (x3 : (⟨S4x25x256x256, .f32⟩ : BufTy).Contents (Elt Ideal)) :
    val_main_v54 (F := Ideal) x0 x1 x2 x3
      = totalSpreadArr (val_main_v0 (F := Ideal) x1) (val_main_v1 (F := Ideal) x3) (val_main_v15 (F := Ideal) x0 x2) := by
  funext i
  obtain ⟨b, q, t, rfl⟩ : ∃ (b : Fin 4) (q : Fin 100) (t : Fin 25), i = ix3 b q t := ⟨i 0, i 1, i 2, eq_ix3 i⟩
  rw [val_main_v54_apply, val_main_v51_apply, val_main_v48_apply, val_main_v47_apply, val_main_cst_12_apply,
    val_main_v50_apply, val_main_v49_apply, val_main_cst_13_apply, val_main_v53_apply, val_main_v52_apply, val_main_cst_14_apply,
    bce_stage, dice_stage]
  rfl

end Cert.RefCost
end
-- ==== Proof.KernelHost.lean ====
/-
  The host side of the kernel program: what the region finds in its two input arrays, and what the lines after
  the region make of the array it leaves.

  Before the region the program flattens the two image axes of the mask logits [4, 100, 256, 256] and of the
  target masks [4, 25, 256, 256] into one pixel axis of length 65536; the region's two input arrays are these
  reshapes of the arguments, the same reshapes the reference starts with.

  After the region the program computes the classification cost c[b, q, t] = −softmax(logits[b, q, ·])[label[b, t]]
  from the class logits and the labels — the softmax over the 81 classes, the pick of the label's column, the
  negation — and returns (1·c + 0) + r, where r is the [4, 100, 25] array the region left. The reference computes
  the same classification cost by the same operations in the same order, so the two are one function of the class
  logits and the labels; the softmax and the pick are never opened here. Read at an index, the program's result is
  the grouped total of the specification with the region's array in the place of the mask cost.
-/
import proofs.«167477_j30846455119893_1_alg».proof.Proof.Gen.KernelIdeal.Frame
import proofs.«167477_j30846455119893_1_alg».proof.Proof.Gen.ReferenceIdeal.Read
import proofs.«167477_j30846455119893_1_alg».proof.Proof.MaskCostSpec

set_option maxRecDepth 16384

noncomputable section

namespace Cert.KernelHost

open Idealize.ShloMosaic Idealize.ShloMosaic.TcCoe Idealize.ShloMosaic.Tactic
open Idealize.SL Idealize.SL.Sem
open Cert.KernelIdeal Cert.KernelIdeal.Gen

variable (m : (ℓ : Loc nD τ sig) → Buf (Elt Ideal) ℓ) (ρ : Dev nD → PrngReg) (c : Dev nD)

/-! ## What the region finds -/

/-- The region's first input array is the mask logits with the two image axes flattened into one pixel axis. -/
theorem V_x : (V m c main_v0 : S4x100x65536.Idx → EReal)
    = shapeCast _ (m ((c : Thread nD τ).loc main_arg1)) shapeCasts_S4x100x256x256_S4x100x65536 := by
  show StableHlo.after hostOps0 (fun b => m (c, b)) (Proc.devRef .tc main_v0) = _
  after_results
  rfl

/-- The region's second input array is the target masks with the two image axes flattened into one pixel axis. -/
theorem V_y : (V m c main_v1 : S4x25x65536.Idx → EReal)
    = shapeCast _ (m ((c : Thread nD τ).loc main_arg3)) shapeCasts_S4x25x256x256_S4x25x65536 := by
  show StableHlo.after hostOps0 (fun b => m (c, b)) (Proc.devRef .tc main_v1) = _
  after_results
  rfl

/-- The flattened mask logits are the reference's first stage of the same argument. -/
theorem V_x_read : (V m c main_v0 : S4x100x65536.Idx → EReal)
    = Cert.ReferenceIdeal.Read.val_main_v0 (F := Ideal) (m ((c : Thread nD τ).loc main_arg1)) := V_x m c

/-- The flattened target masks are the reference's second stage of the same argument. -/
theorem V_y_read : (V m c main_v1 : S4x25x65536.Idx → EReal)
    = Cert.ReferenceIdeal.Read.val_main_v1 (F := Ideal) (m ((c : Thread nD τ).loc main_arg3)) := V_y m c

/-! ## What the lines after the region return -/

/-- The last three lines read index by index: the float one times the classification cost, plus the float zero,
    plus the region's array — the grouped total of the specification. A scalar constant broadcast to the whole
    shape is that constant at every index. -/
theorem grouped_of (T cc R M : S4x100x25.Idx → EReal) (hT : T = cc) (hR : R = M) :
    addf (F := Ideal) (s := S4x100x25) (φ := .f32)
        (addf (mulf (broadcastInDim S4x100x25 ![] bcast_S_S4x100x25 (constant (F := Ideal) S_ .f32 0x3F800000#32)) T)
          (broadcastInDim S4x100x25 ![] bcast_S_S4x100x25 (constant (F := Ideal) S_ .f32 0x00000000#32))) R
      = fun i => Cert.MaskCost.totalGrouped (cc i) (M i) := by
  subst hT hR
  funext i
  rfl

set_option maxHeartbeats 4000000 in
/-- The program's result, index by index: (1·c + 0) + r, with c the classification cost — the reference's stage
    of the class logits and the labels, the same softmax, pick and negation composed in the same order — and r the
    array the region left. The lines after the region write neither the class logits, nor the labels, nor the
    region's array, so each is read as the region left it. -/
theorem tail_result :
    Pipeline.afterTail₀ cfgs (dats m) 0 (V0 m) [hostOps1, hostOps1_1, hostOps1_2] c main_v21
      = fun i => Cert.MaskCost.totalGrouped
          (Cert.ReferenceIdeal.Read.val_main_v15 (F := Ideal) (m ((c : Thread nD τ).loc main_arg0))
            (m ((c : Thread nD τ).loc main_arg2)) i)
          ((dats m 0 c).arrAt 2 cfg0.N i) := by
  have h0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0
      (by exact (by decide : ∀ w, Pipeline.arrRef spec0 w ≠ main_arg0))).trans (V_main_arg0 m c)
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2
      (by exact (by decide : ∀ w, Pipeline.arrRef spec0 w ≠ main_arg2))).trans (V_main_arg2 m c)
  have hR : Pipeline.withArrays (cfgs 0).spec c (V0 m c) (fun w => (dats m 0 c).arrAt w (cfgs 0).N) (Proc.devRef .tc main_v2)
      = (dats m 0 c).arrAt 2 cfg0.N :=
    Pipeline.withArrays_arr spec0 launch0.win.arr_inj c _ _ 2
  unfold Pipeline.afterTail₀
  simp only [hostOps1, hostOps1_1, hostOps1_2, List.flatten_cons, List.flatten_nil, List.append_nil, List.cons_append,
    List.nil_append]
  after_results_simp
  rw [h0, h2]
  exact grouped_of _ _ _ _ rfl hR

/-! ## The run -/

/-- Every weakly fair execution of the program terminates; it ends with the result at the grouped total
    (1·c + 0) + M, for any array M the region's output is known to equal, and with the four arguments unchanged. -/
theorem run_value (M : Dev nD → (S4x100x25.Idx → EReal)) (hfinal : ∀ c, (dats m 0 c).arrAt 2 cfg0.N = M c) :
    θ_run defs (onTc (τ := τ) (main (F := Ideal))) ⟨m, fun _ => 0, ρ⟩ (fun r => ∀ c : Dev nD,
      r.2.mem ((c.tc : Thread nD τ).loc main_v21)
          = (fun i => Cert.MaskCost.totalGrouped
              (Cert.ReferenceIdeal.Read.val_main_v15 (F := Ideal) (m ((c.tc : Thread nD τ).loc main_arg0))
                (m ((c.tc : Thread nD τ).loc main_arg2)) i)
              (M c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v21 (Pipeline.mem_restRefs_of main_v21 (by decide) (by decide))).trans
        ((tail_result m c).trans (by rw [hfinal c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelHost

end
-- ==== Proof.KernelPieces.lean ====
/-
  What one grid point's body leaves in each of its buffers, as a pure function of what it read.

  The body accumulates five partial sums in buffers that live across the sixteen pixel chunks of a batch entry:
  the logit·target products (100×25), the sigmoid·target products (100×25), the softplus row sums (100×1), the
  sigmoid row sums (100×1) and the target row sums (25×1). At every point each buffer ends at "what it held
  before, plus this chunk's contribution"; at a batch entry's first chunk "what it held before" is the zero array
  the body has just stored there; at the last chunk the body also stores the cost block (1×100×25) computed from the
  five buffers' final contents. Each statement below says exactly that for one buffer in one of the three cases
  (first chunk, middle chunk, last chunk), for any float instance.
-/
import proofs.«167477_j30846455119893_1_alg».proof.Proof.Gen.KernelIdeal.Frame
import Idealize.ShloMosaic.Lib.Pipeline.Value

set_option maxRecDepth 16384

noncomputable section

namespace Cert.KernelPieces

open Idealize.ShloMosaic Idealize.ShloMosaic.TcCoe Idealize.ShloMosaic.Tactic
open Idealize.SL Idealize.SL.Sem
open Cert.KernelIdeal Cert.KernelIdeal.Gen

variable {F : FTy → Type} [FloatOps F]

theorem zeros2 : (![0, 0] : Fin 2 → Nat) = fun _ => 0 := by funext a; fin_cases a <;> rfl
theorem zeros3 : (![0, 0, 0] : Fin 3 → Nat) = fun _ => 0 := by funext a; fin_cases a <;> rfl

theorem sout0_A_0_eq (c : Dev nD) (i : grid0.Coords) (arg2 : Memref sig .tc .vmem S1x100x4096 .f32) (harg2 : arg2.IsWhole) (arg3 : Memref sig .tc .vmem S1x25x4096 .f32) (harg3 : arg3.IsWhole) (arg4 : Memref sig .tc .vmem S1x100x25 .f32) (harg4 : arg4.IsWhole) (arg5 : Memref sig .tc .vmem S100x25 .f32) (harg5 : arg5.IsWhole) (arg6 : Memref sig .tc .vmem S100x25 .f32) (harg6 : arg6.IsWhole) (arg7 : Memref sig .tc .vmem S100x1 .f32) (harg7 : arg7.IsWhole) (arg8 : Memref sig .tc .vmem S100x1 .f32) (harg8 : arg8.IsWhole) (arg9 : Memref sig .tc .vmem S25x1 .f32) (harg9 : arg9.IsWhole) (hc0 : cond0_0 i) (hc1 : ¬cond0_1 i) (x0 : Vec F S1x100x4096 .f32) (x1 : Vec F S1x25x4096 .f32) :
    sout0_A_0 (F := F) c i arg2 harg2 arg3 harg3 arg4 harg4 arg5 harg5 arg6 harg6 arg7 harg7 arg8 harg8 arg9 harg9 hc0 hc1 x0 x1 = k0_pay3 (k0_pay11 x0) (k0_pay12 x1) (k0_pay6 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  sl_unfold_words
  refine (View.canon_cons_unit_zero (S := S100x25) zeros2 _ _ _).trans ?_
  simp only [View.readAt_eq_ld, harg2.read_unread, harg3.read_unread, harg4.read_unread, harg5.read_unread, harg6.read_unread, harg7.read_unread, harg8.read_unread, harg9.read_unread, View.ld_unit_zero (S := S1x100x4096) zeros3, View.ld_unit_zero (S := S1x25x4096) zeros3, View.ld_unit_zero (S := S1x100x25) zeros3, View.ld_unit_zero (S := S100x25) zeros2, View.ld_unit_zero (S := S100x1) zeros2, View.ld_unit_zero (S := S25x1) zeros2, View.readCov_unit_zero (S := S100x25) _ zeros2, View.readCov_unit_zero (S := S100x1) _ zeros2, View.readCov_unit_zero (S := S25x1) _ zeros2]

theorem sout0_A_1_eq (c : Dev nD) (i : grid0.Coords) (arg2 : Memref sig .tc .vmem S1x100x4096 .f32) (harg2 : arg2.IsWhole) (arg3 : Memref sig .tc .vmem S1x25x4096 .f32) (harg3 : arg3.IsWhole) (arg4 : Memref sig .tc .vmem S1x100x25 .f32) (harg4 : arg4.IsWhole) (arg5 : Memref sig .tc .vmem S100x25 .f32) (harg5 : arg5.IsWhole) (arg6 : Memref sig .tc .vmem S100x25 .f32) (harg6 : arg6.IsWhole) (arg7 : Memref sig .tc .vmem S100x1 .f32) (harg7 : arg7.IsWhole) (arg8 : Memref sig .tc .vmem S100x1 .f32) (harg8 : arg8.IsWhole) (arg9 : Memref sig .tc .vmem S25x1 .f32) (harg9 : arg9.IsWhole) (hc0 : cond0_0 i) (hc1 : ¬cond0_1 i) (x0 : Vec F S1x100x4096 .f32) (x1 : Vec F S1x25x4096 .f32) :
    sout0_A_1 (F := F) c i arg2 harg2 arg3 harg3 arg4 harg4 arg5 harg5 arg6 harg6 arg7 harg7 arg8 harg8 arg9 harg9 hc0 hc1 x0 x1 = k0_pay4 (k0_pay12 x1) (k0_pay13 x0) (k0_pay7 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  sl_unfold_words
  refine (View.canon_cons_unit_zero (S := S100x25) zeros2 _ _ _).trans ?_
  simp only [View.readAt_eq_ld, harg2.read_unread, harg3.read_unread, harg4.read_unread, harg5.read_unread, harg6.read_unread, harg7.read_unread, harg8.read_unread, harg9.read_unread, View.ld_unit_zero (S := S1x100x4096) zeros3, View.ld_unit_zero (S := S1x25x4096) zeros3, View.ld_unit_zero (S := S1x100x25) zeros3, View.ld_unit_zero (S := S100x25) zeros2, View.ld_unit_zero (S := S100x1) zeros2, View.ld_unit_zero (S := S25x1) zeros2, View.readCov_unit_zero (S := S100x25) _ zeros2, View.readCov_unit_zero (S := S100x1) _ zeros2, View.readCov_unit_zero (S := S25x1) _ zeros2]

theorem sout0_A_2_eq (c : Dev nD) (i : grid0.Coords) (arg2 : Memref sig .tc .vmem S1x100x4096 .f32) (harg2 : arg2.IsWhole) (arg3 : Memref sig .tc .vmem S1x25x4096 .f32) (harg3 : arg3.IsWhole) (arg4 : Memref sig .tc .vmem S1x100x25 .f32) (harg4 : arg4.IsWhole) (arg5 : Memref sig .tc .vmem S100x25 .f32) (harg5 : arg5.IsWhole) (arg6 : Memref sig .tc .vmem S100x25 .f32) (harg6 : arg6.IsWhole) (arg7 : Memref sig .tc .vmem S100x1 .f32) (harg7 : arg7.IsWhole) (arg8 : Memref sig .tc .vmem S100x1 .f32) (harg8 : arg8.IsWhole) (arg9 : Memref sig .tc .vmem S25x1 .f32) (harg9 : arg9.IsWhole) (hc0 : cond0_0 i) (hc1 : ¬cond0_1 i) (x0 : Vec F S1x100x4096 .f32) (x1 : Vec F S1x25x4096 .f32) :
    sout0_A_2 (F := F) c i arg2 harg2 arg3 harg3 arg4 harg4 arg5 harg5 arg6 harg6 arg7 harg7 arg8 harg8 arg9 harg9 hc0 hc1 x0 x1 = k0_pay14 x0 (k0_pay8 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  sl_unfold_words
  refine (View.canon_cons_unit_zero (S := S100x1) zeros2 _ _ _).trans ?_
  simp only [View.readAt_eq_ld, harg2.read_unread, harg3.read_unread, harg4.read_unread, harg5.read_unread, harg6.read_unread, harg7.read_unread, harg8.read_unread, harg9.read_unread, View.ld_unit_zero (S := S1x100x4096) zeros3, View.ld_unit_zero (S := S1x25x4096) zeros3, View.ld_unit_zero (S := S1x100x25) zeros3, View.ld_unit_zero (S := S100x25) zeros2, View.ld_unit_zero (S := S100x1) zeros2, View.ld_unit_zero (S := S25x1) zeros2, View.readCov_unit_zero (S := S100x25) _ zeros2, View.readCov_unit_zero (S := S100x1) _ zeros2, View.readCov_unit_zero (S := S25x1) _ zeros2]

theorem sout0_A_3_eq (c : Dev nD) (i : grid0.Coords) (arg2 : Memref sig .tc .vmem S1x100x4096 .f32) (harg2 : arg2.IsWhole) (arg3 : Memref sig .tc .vmem S1x25x4096 .f32) (harg3 : arg3.IsWhole) (arg4 : Memref sig .tc .vmem S1x100x25 .f32) (harg4 : arg4.IsWhole) (arg5 : Memref sig .tc .vmem S100x25 .f32) (harg5 : arg5.IsWhole) (arg6 : Memref sig .tc .vmem S100x25 .f32) (harg6 : arg6.IsWhole) (arg7 : Memref sig .tc .vmem S100x1 .f32) (harg7 : arg7.IsWhole) (arg8 : Memref sig .tc .vmem S100x1 .f32) (harg8 : arg8.IsWhole) (arg9 : Memref sig .tc .vmem S25x1 .f32) (harg9 : arg9.IsWhole) (hc0 : cond0_0 i) (hc1 : ¬cond0_1 i) (x0 : Vec F S1x100x4096 .f32) (x1 : Vec F S1x25x4096 .f32) :
    sout0_A_3 (F := F) c i arg2 harg2 arg3 harg3 arg4 harg4 arg5 harg5 arg6 harg6 arg7 harg7 arg8 harg8 arg9 harg9 hc0 hc1 x0 x1 = k0_pay15 x0 (k0_pay9 (F := F)) := by
  unfold sout0_A_3
  rw [View.read_writes_eq_canon _ _ _ (scover0_A_3 c i arg2 harg2 arg3 harg3 arg4 harg4 arg5 harg5 arg6 harg6 arg7 harg7 arg8 harg8 arg9 harg9 hc0 hc1 x0 x1)]
  unfold kernelRun0_A
  dsimp only
  sl_unfold_words
  refine (View.canon_cons_unit_zero (S := S100x1) zeros2 _ _ _).trans ?_
  simp only [View.readAt_eq_ld, harg2.read_unread, harg3.read_unread, harg4.read_unread, harg5.read_unread, harg6.read_unread, harg7.read_unread, harg8.read_unread, harg9.read_unread, View.ld_unit_zero (S := S1x100x4096) zeros3, View.ld_unit_zero (S := S1x25x4096) zeros3, View.ld_unit_zero (S := S1x100x25) zeros3, View.ld_unit_zero (S := S100x25) zeros2, View.ld_unit_zero (S := S100x1) zeros2, View.ld_unit_zero (S := S25x1) zeros2, View.readCov_unit_zero (S := S100x25) _ zeros2, View.readCov_unit_zero (S := S100x1) _ zeros2, View.readCov_unit_zero (S := S25x1) _ zeros2]

theorem sout0_A_4_eq (c : Dev nD) (i : grid0.Coords) (arg2 : Memref sig .tc .vmem S1x100x4096 .f32) (harg2 : arg2.IsWhole) (arg3 : Memref sig .tc .vmem S1x25x4096 .f32) (harg3 : arg3.IsWhole) (arg4 : Memref sig .tc .vmem S1x100x25 .f32) (harg4 : arg4.IsWhole) (arg5 : Memref sig .tc .vmem S100x25 .f32) (harg5 : arg5.IsWhole) (arg6 : Memref sig .tc .vmem S100x25 .f32) (harg6 : arg6.IsWhole) (arg7 : Memref sig .tc .vmem S100x1 .f32) (harg7 : arg7.IsWhole) (arg8 : Memref sig .tc .vmem S100x1 .f32) (harg8 : arg8.IsWhole) (arg9 : Memref sig .tc .vmem S25x1 .f32) (harg9 : arg9.IsWhole) (hc0 : cond0_0 i) (hc1 : ¬cond0_1 i) (x0 : Vec F S1x100x4096 .f32) (x1 : Vec F S1x25x4096 .f32) :
    sout0_A_4 (F := F) c i arg2 harg2 arg3 harg3 arg4 harg4 arg5 harg5 arg6 harg6 arg7 harg7 arg8 harg8 arg9 harg9 hc0 hc1 x0 x1 = k0_pay1 (k0_pay12 x1) (k0_pay10 (F := F)) := by
  unfold sout0_A_4
  rw [View.read_writes_eq_canon _ _ _ (scover0_A_4 c i arg2 harg2 arg3 harg3 arg4 harg4 arg5 harg5 arg6 harg6 arg7 harg7 arg8 harg8 arg9 harg9 hc0 hc1 x0 x1)]
  unfold kernelRun0_A
  dsimp only
  sl_unfold_words
  refine (View.canon_cons_unit_zero (S := S25x1) zeros2 _ _ _).trans ?_
  simp only [View.readAt_eq_ld, harg2.read_unread, harg3.read_unread, harg4.read_unread, harg5.read_unread, harg6.read_unread, harg7.read_unread, harg8.read_unread, harg9.read_unread, View.ld_unit_zero (S := S1x100x4096) zeros3, View.ld_unit_zero (S := S1x25x4096) zeros3, View.ld_unit_zero (S := S1x100x25) zeros3, View.ld_unit_zero (S := S100x25) zeros2, View.ld_unit_zero (S := S100x1) zeros2, View.ld_unit_zero (S := S25x1) zeros2, View.readCov_unit_zero (S := S100x25) _ zeros2, View.readCov_unit_zero (S := S100x1) _ zeros2, View.readCov_unit_zero (S := S25x1) _ zeros2]

theorem sout0_B_0_eq (c : Dev nD) (i : grid0.Coords) (arg2 : Memref sig .tc .vmem S1x100x4096 .f32) (harg2 : arg2.IsWhole) (arg3 : Memref sig .tc .vmem S1x25x4096 .f32) (harg3 : arg3.IsWhole) (arg4 : Memref sig .tc .vmem S1x100x25 .f32) (harg4 : arg4.IsWhole) (arg5 : Memref sig .tc .vmem S100x25 .f32) (harg5 : arg5.IsWhole) (arg6 : Memref sig .tc .vmem S100x25 .f32) (harg6 : arg6.IsWhole) (arg7 : Memref sig .tc .vmem S100x1 .f32) (harg7 : arg7.IsWhole) (arg8 : Memref sig .tc .vmem S100x1 .f32) (harg8 : arg8.IsWhole) (arg9 : Memref sig .tc .vmem S25x1 .f32) (harg9 : arg9.IsWhole) (hc0 : ¬cond0_0 i) (hc1 : ¬cond0_1 i) (x0 : Vec F S1x100x4096 .f32) (x1 : Vec F S1x25x4096 .f32) (xs0 : Vec F S100x25 .f32) (xs1 : Vec F S100x25 .f32) (xs2 : Vec F S100x1 .f32) (xs3 : Vec F S100x1 .f32) (xs4 : Vec F S25x1 .f32) :
    sout0_B_0 (F := F) c i arg2 harg2 arg3 harg3 arg4 harg4 arg5 harg5 arg6 harg6 arg7 harg7 arg8 harg8 arg9 harg9 hc0 hc1 x0 x1 xs0 xs1 xs2 xs3 xs4 = k0_pay3 (k0_pay11 x0) (k0_pay12 x1) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  refine (View.canon_cons_unit_zero (S := S100x25) zeros2 _ _ _).trans ?_
  simp only [View.readAt_eq_ld, harg2.read_unread, harg3.read_unread, harg4.read_unread, harg5.read_unread, harg6.read_unread, harg7.read_unread, harg8.read_unread, harg9.read_unread, View.ld_unit_zero (S := S1x100x4096) zeros3, View.ld_unit_zero (S := S1x25x4096) zeros3, View.ld_unit_zero (S := S1x100x25) zeros3, View.ld_unit_zero (S := S100x25) zeros2, View.ld_unit_zero (S := S100x1) zeros2, View.ld_unit_zero (S := S25x1) zeros2, View.readCov_unit_zero (S := S100x25) _ zeros2, View.readCov_unit_zero (S := S100x1) _ zeros2, View.readCov_unit_zero (S := S25x1) _ zeros2]

theorem sout0_B_1_eq (c : Dev nD) (i : grid0.Coords) (arg2 : Memref sig .tc .vmem S1x100x4096 .f32) (harg2 : arg2.IsWhole) (arg3 : Memref sig .tc .vmem S1x25x4096 .f32) (harg3 : arg3.IsWhole) (arg4 : Memref sig .tc .vmem S1x100x25 .f32) (harg4 : arg4.IsWhole) (arg5 : Memref sig .tc .vmem S100x25 .f32) (harg5 : arg5.IsWhole) (arg6 : Memref sig .tc .vmem S100x25 .f32) (harg6 : arg6.IsWhole) (arg7 : Memref sig .tc .vmem S100x1 .f32) (harg7 : arg7.IsWhole) (arg8 : Memref sig .tc .vmem S100x1 .f32) (harg8 : arg8.IsWhole) (arg9 : Memref sig .tc .vmem S25x1 .f32) (harg9 : arg9.IsWhole) (hc0 : ¬cond0_0 i) (hc1 : ¬cond0_1 i) (x0 : Vec F S1x100x4096 .f32) (x1 : Vec F S1x25x4096 .f32) (xs0 : Vec F S100x25 .f32) (xs1 : Vec F S100x25 .f32) (xs2 : Vec F S100x1 .f32) (xs3 : Vec F S100x1 .f32) (xs4 : Vec F S25x1 .f32) :
    sout0_B_1 (F := F) c i arg2 harg2 arg3 harg3 arg4 harg4 arg5 harg5 arg6 harg6 arg7 harg7 arg8 harg8 arg9 harg9 hc0 hc1 x0 x1 xs0 xs1 xs2 xs3 xs4 = k0_pay4 (k0_pay12 x1) (k0_pay13 x0) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  refine (View.canon_cons_unit_zero (S := S100x25) zeros2 _ _ _).trans ?_
  simp only [View.readAt_eq_ld, harg2.read_unread, harg3.read_unread, harg4.read_unread, harg5.read_unread, harg6.read_unread, harg7.read_unread, harg8.read_unread, harg9.read_unread, View.ld_unit_zero (S := S1x100x4096) zeros3, View.ld_unit_zero (S := S1x25x4096) zeros3, View.ld_unit_zero (S := S1x100x25) zeros3, View.ld_unit_zero (S := S100x25) zeros2, View.ld_unit_zero (S := S100x1) zeros2, View.ld_unit_zero (S := S25x1) zeros2, View.readCov_unit_zero (S := S100x25) _ zeros2, View.readCov_unit_zero (S := S100x1) _ zeros2, View.readCov_unit_zero (S := S25x1) _ zeros2]

theorem sout0_B_2_eq (c : Dev nD) (i : grid0.Coords) (arg2 : Memref sig .tc .vmem S1x100x4096 .f32) (harg2 : arg2.IsWhole) (arg3 : Memref sig .tc .vmem S1x25x4096 .f32) (harg3 : arg3.IsWhole) (arg4 : Memref sig .tc .vmem S1x100x25 .f32) (harg4 : arg4.IsWhole) (arg5 : Memref sig .tc .vmem S100x25 .f32) (harg5 : arg5.IsWhole) (arg6 : Memref sig .tc .vmem S100x25 .f32) (harg6 : arg6.IsWhole) (arg7 : Memref sig .tc .vmem S100x1 .f32) (harg7 : arg7.IsWhole) (arg8 : Memref sig .tc .vmem S100x1 .f32) (harg8 : arg8.IsWhole) (arg9 : Memref sig .tc .vmem S25x1 .f32) (harg9 : arg9.IsWhole) (hc0 : ¬cond0_0 i) (hc1 : ¬cond0_1 i) (x0 : Vec F S1x100x4096 .f32) (x1 : Vec F S1x25x4096 .f32) (xs0 : Vec F S100x25 .f32) (xs1 : Vec F S100x25 .f32) (xs2 : Vec F S100x1 .f32) (xs3 : Vec F S100x1 .f32) (xs4 : Vec F S25x1 .f32) :
    sout0_B_2 (F := F) c i arg2 harg2 arg3 harg3 arg4 harg4 arg5 harg5 arg6 harg6 arg7 harg7 arg8 harg8 arg9 harg9 hc0 hc1 x0 x1 xs0 xs1 xs2 xs3 xs4 = k0_pay14 x0 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  refine (View.canon_cons_unit_zero (S := S100x1) zeros2 _ _ _).trans ?_
  simp only [View.readAt_eq_ld, harg2.read_unread, harg3.read_unread, harg4.read_unread, harg5.read_unread, harg6.read_unread, harg7.read_unread, harg8.read_unread, harg9.read_unread, View.ld_unit_zero (S := S1x100x4096) zeros3, View.ld_unit_zero (S := S1x25x4096) zeros3, View.ld_unit_zero (S := S1x100x25) zeros3, View.ld_unit_zero (S := S100x25) zeros2, View.ld_unit_zero (S := S100x1) zeros2, View.ld_unit_zero (S := S25x1) zeros2, View.readCov_unit_zero (S := S100x25) _ zeros2, View.readCov_unit_zero (S := S100x1) _ zeros2, View.readCov_unit_zero (S := S25x1) _ zeros2]

theorem sout0_B_3_eq (c : Dev nD) (i : grid0.Coords) (arg2 : Memref sig .tc .vmem S1x100x4096 .f32) (harg2 : arg2.IsWhole) (arg3 : Memref sig .tc .vmem S1x25x4096 .f32) (harg3 : arg3.IsWhole) (arg4 : Memref sig .tc .vmem S1x100x25 .f32) (harg4 : arg4.IsWhole) (arg5 : Memref sig .tc .vmem S100x25 .f32) (harg5 : arg5.IsWhole) (arg6 : Memref sig .tc .vmem S100x25 .f32) (harg6 : arg6.IsWhole) (arg7 : Memref sig .tc .vmem S100x1 .f32) (harg7 : arg7.IsWhole) (arg8 : Memref sig .tc .vmem S100x1 .f32) (harg8 : arg8.IsWhole) (arg9 : Memref sig .tc .vmem S25x1 .f32) (harg9 : arg9.IsWhole) (hc0 : ¬cond0_0 i) (hc1 : ¬cond0_1 i) (x0 : Vec F S1x100x4096 .f32) (x1 : Vec F S1x25x4096 .f32) (xs0 : Vec F S100x25 .f32) (xs1 : Vec F S100x25 .f32) (xs2 : Vec F S100x1 .f32) (xs3 : Vec F S100x1 .f32) (xs4 : Vec F S25x1 .f32) :
    sout0_B_3 (F := F) c i arg2 harg2 arg3 harg3 arg4 harg4 arg5 harg5 arg6 harg6 arg7 harg7 arg8 harg8 arg9 harg9 hc0 hc1 x0 x1 xs0 xs1 xs2 xs3 xs4 = k0_pay15 x0 xs3 := by
  unfold sout0_B_3
  rw [View.read_writes_eq_canon _ _ _ (scover0_B_3 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  refine (View.canon_cons_unit_zero (S := S100x1) zeros2 _ _ _).trans ?_
  simp only [View.readAt_eq_ld, harg2.read_unread, harg3.read_unread, harg4.read_unread, harg5.read_unread, harg6.read_unread, harg7.read_unread, harg8.read_unread, harg9.read_unread, View.ld_unit_zero (S := S1x100x4096) zeros3, View.ld_unit_zero (S := S1x25x4096) zeros3, View.ld_unit_zero (S := S1x100x25) zeros3, View.ld_unit_zero (S := S100x25) zeros2, View.ld_unit_zero (S := S100x1) zeros2, View.ld_unit_zero (S := S25x1) zeros2, View.readCov_unit_zero (S := S100x25) _ zeros2, View.readCov_unit_zero (S := S100x1) _ zeros2, View.readCov_unit_zero (S := S25x1) _ zeros2]

theorem sout0_B_4_eq (c : Dev nD) (i : grid0.Coords) (arg2 : Memref sig .tc .vmem S1x100x4096 .f32) (harg2 : arg2.IsWhole) (arg3 : Memref sig .tc .vmem S1x25x4096 .f32) (harg3 : arg3.IsWhole) (arg4 : Memref sig .tc .vmem S1x100x25 .f32) (harg4 : arg4.IsWhole) (arg5 : Memref sig .tc .vmem S100x25 .f32) (harg5 : arg5.IsWhole) (arg6 : Memref sig .tc .vmem S100x25 .f32) (harg6 : arg6.IsWhole) (arg7 : Memref sig .tc .vmem S100x1 .f32) (harg7 : arg7.IsWhole) (arg8 : Memref sig .tc .vmem S100x1 .f32) (harg8 : arg8.IsWhole) (arg9 : Memref sig .tc .vmem S25x1 .f32) (harg9 : arg9.IsWhole) (hc0 : ¬cond0_0 i) (hc1 : ¬cond0_1 i) (x0 : Vec F S1x100x4096 .f32) (x1 : Vec F S1x25x4096 .f32) (xs0 : Vec F S100x25 .f32) (xs1 : Vec F S100x25 .f32) (xs2 : Vec F S100x1 .f32) (xs3 : Vec F S100x1 .f32) (xs4 : Vec F S25x1 .f32) :
    sout0_B_4 (F := F) c i arg2 harg2 arg3 harg3 arg4 harg4 arg5 harg5 arg6 harg6 arg7 harg7 arg8 harg8 arg9 harg9 hc0 hc1 x0 x1 xs0 xs1 xs2 xs3 xs4 = k0_pay1 (k0_pay12 x1) xs4 := by
  unfold sout0_B_4
  rw [View.read_writes_eq_canon _ _ _ (scover0_B_4 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  refine (View.canon_cons_unit_zero (S := S25x1) zeros2 _ _ _).trans ?_
  simp only [View.readAt_eq_ld, harg2.read_unread, harg3.read_unread, harg4.read_unread, harg5.read_unread, harg6.read_unread, harg7.read_unread, harg8.read_unread, harg9.read_unread, View.ld_unit_zero (S := S1x100x4096) zeros3, View.ld_unit_zero (S := S1x25x4096) zeros3, View.ld_unit_zero (S := S1x100x25) zeros3, View.ld_unit_zero (S := S100x25) zeros2, View.ld_unit_zero (S := S100x1) zeros2, View.ld_unit_zero (S := S25x1) zeros2, View.readCov_unit_zero (S := S100x25) _ zeros2, View.readCov_unit_zero (S := S100x1) _ zeros2, View.readCov_unit_zero (S := S25x1) _ zeros2]

theorem sout0_C_0_eq (c : Dev nD) (i : grid0.Coords) (arg2 : Memref sig .tc .vmem S1x100x4096 .f32) (harg2 : arg2.IsWhole) (arg3 : Memref sig .tc .vmem S1x25x4096 .f32) (harg3 : arg3.IsWhole) (arg4 : Memref sig .tc .vmem S1x100x25 .f32) (harg4 : arg4.IsWhole) (arg5 : Memref sig .tc .vmem S100x25 .f32) (harg5 : arg5.IsWhole) (arg6 : Memref sig .tc .vmem S100x25 .f32) (harg6 : arg6.IsWhole) (arg7 : Memref sig .tc .vmem S100x1 .f32) (harg7 : arg7.IsWhole) (arg8 : Memref sig .tc .vmem S100x1 .f32) (harg8 : arg8.IsWhole) (arg9 : Memref sig .tc .vmem S25x1 .f32) (harg9 : arg9.IsWhole) (hc0 : ¬cond0_0 i) (hc1 : cond0_1 i) (x0 : Vec F S1x100x4096 .f32) (x1 : Vec F S1x25x4096 .f32) (xs0 : Vec F S100x25 .f32) (xs1 : Vec F S100x25 .f32) (xs2 : Vec F S100x1 .f32) (xs3 : Vec F S100x1 .f32) (xs4 : Vec F S25x1 .f32) :
    sout0_C_0 (F := F) c i arg2 harg2 arg3 harg3 arg4 harg4 arg5 harg5 arg6 harg6 arg7 harg7 arg8 harg8 arg9 harg9 hc0 hc1 x0 x1 xs0 xs1 xs2 xs3 xs4 = k0_pay3 (k0_pay11 x0) (k0_pay12 x1) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  refine (View.canon_cons_unit_zero (S := S100x25) zeros2 _ _ _).trans ?_
  simp only [View.readAt_eq_ld, harg2.read_unread, harg3.read_unread, harg4.read_unread, harg5.read_unread, harg6.read_unread, harg7.read_unread, harg8.read_unread, harg9.read_unread, View.ld_unit_zero (S := S1x100x4096) zeros3, View.ld_unit_zero (S := S1x25x4096) zeros3, View.ld_unit_zero (S := S1x100x25) zeros3, View.ld_unit_zero (S := S100x25) zeros2, View.ld_unit_zero (S := S100x1) zeros2, View.ld_unit_zero (S := S25x1) zeros2, View.readCov_unit_zero (S := S100x25) _ zeros2, View.readCov_unit_zero (S := S100x1) _ zeros2, View.readCov_unit_zero (S := S25x1) _ zeros2]

theorem sout0_C_1_eq (c : Dev nD) (i : grid0.Coords) (arg2 : Memref sig .tc .vmem S1x100x4096 .f32) (harg2 : arg2.IsWhole) (arg3 : Memref sig .tc .vmem S1x25x4096 .f32) (harg3 : arg3.IsWhole) (arg4 : Memref sig .tc .vmem S1x100x25 .f32) (harg4 : arg4.IsWhole) (arg5 : Memref sig .tc .vmem S100x25 .f32) (harg5 : arg5.IsWhole) (arg6 : Memref sig .tc .vmem S100x25 .f32) (harg6 : arg6.IsWhole) (arg7 : Memref sig .tc .vmem S100x1 .f32) (harg7 : arg7.IsWhole) (arg8 : Memref sig .tc .vmem S100x1 .f32) (harg8 : arg8.IsWhole) (arg9 : Memref sig .tc .vmem S25x1 .f32) (harg9 : arg9.IsWhole) (hc0 : ¬cond0_0 i) (hc1 : cond0_1 i) (x0 : Vec F S1x100x4096 .f32) (x1 : Vec F S1x25x4096 .f32) (xs0 : Vec F S100x25 .f32) (xs1 : Vec F S100x25 .f32) (xs2 : Vec F S100x1 .f32) (xs3 : Vec F S100x1 .f32) (xs4 : Vec F S25x1 .f32) :
    sout0_C_1 (F := F) c i arg2 harg2 arg3 harg3 arg4 harg4 arg5 harg5 arg6 harg6 arg7 harg7 arg8 harg8 arg9 harg9 hc0 hc1 x0 x1 xs0 xs1 xs2 xs3 xs4 = k0_pay4 (k0_pay12 x1) (k0_pay13 x0) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  refine (View.canon_cons_unit_zero (S := S100x25) zeros2 _ _ _).trans ?_
  simp only [View.readAt_eq_ld, harg2.read_unread, harg3.read_unread, harg4.read_unread, harg5.read_unread, harg6.read_unread, harg7.read_unread, harg8.read_unread, harg9.read_unread, View.ld_unit_zero (S := S1x100x4096) zeros3, View.ld_unit_zero (S := S1x25x4096) zeros3, View.ld_unit_zero (S := S1x100x25) zeros3, View.ld_unit_zero (S := S100x25) zeros2, View.ld_unit_zero (S := S100x1) zeros2, View.ld_unit_zero (S := S25x1) zeros2, View.readCov_unit_zero (S := S100x25) _ zeros2, View.readCov_unit_zero (S := S100x1) _ zeros2, View.readCov_unit_zero (S := S25x1) _ zeros2]

theorem sout0_C_2_eq (c : Dev nD) (i : grid0.Coords) (arg2 : Memref sig .tc .vmem S1x100x4096 .f32) (harg2 : arg2.IsWhole) (arg3 : Memref sig .tc .vmem S1x25x4096 .f32) (harg3 : arg3.IsWhole) (arg4 : Memref sig .tc .vmem S1x100x25 .f32) (harg4 : arg4.IsWhole) (arg5 : Memref sig .tc .vmem S100x25 .f32) (harg5 : arg5.IsWhole) (arg6 : Memref sig .tc .vmem S100x25 .f32) (harg6 : arg6.IsWhole) (arg7 : Memref sig .tc .vmem S100x1 .f32) (harg7 : arg7.IsWhole) (arg8 : Memref sig .tc .vmem S100x1 .f32) (harg8 : arg8.IsWhole) (arg9 : Memref sig .tc .vmem S25x1 .f32) (harg9 : arg9.IsWhole) (hc0 : ¬cond0_0 i) (hc1 : cond0_1 i) (x0 : Vec F S1x100x4096 .f32) (x1 : Vec F S1x25x4096 .f32) (xs0 : Vec F S100x25 .f32) (xs1 : Vec F S100x25 .f32) (xs2 : Vec F S100x1 .f32) (xs3 : Vec F S100x1 .f32) (xs4 : Vec F S25x1 .f32) :
    sout0_C_2 (F := F) c i arg2 harg2 arg3 harg3 arg4 harg4 arg5 harg5 arg6 harg6 arg7 harg7 arg8 harg8 arg9 harg9 hc0 hc1 x0 x1 xs0 xs1 xs2 xs3 xs4 = k0_pay14 x0 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  refine (View.canon_cons_unit_zero (S := S100x1) zeros2 _ _ _).trans ?_
  simp only [View.readAt_eq_ld, harg2.read_unread, harg3.read_unread, harg4.read_unread, harg5.read_unread, harg6.read_unread, harg7.read_unread, harg8.read_unread, harg9.read_unread, View.ld_unit_zero (S := S1x100x4096) zeros3, View.ld_unit_zero (S := S1x25x4096) zeros3, View.ld_unit_zero (S := S1x100x25) zeros3, View.ld_unit_zero (S := S100x25) zeros2, View.ld_unit_zero (S := S100x1) zeros2, View.ld_unit_zero (S := S25x1) zeros2, View.readCov_unit_zero (S := S100x25) _ zeros2, View.readCov_unit_zero (S := S100x1) _ zeros2, View.readCov_unit_zero (S := S25x1) _ zeros2]

theorem sout0_C_3_eq (c : Dev nD) (i : grid0.Coords) (arg2 : Memref sig .tc .vmem S1x100x4096 .f32) (harg2 : arg2.IsWhole) (arg3 : Memref sig .tc .vmem S1x25x4096 .f32) (harg3 : arg3.IsWhole) (arg4 : Memref sig .tc .vmem S1x100x25 .f32) (harg4 : arg4.IsWhole) (arg5 : Memref sig .tc .vmem S100x25 .f32) (harg5 : arg5.IsWhole) (arg6 : Memref sig .tc .vmem S100x25 .f32) (harg6 : arg6.IsWhole) (arg7 : Memref sig .tc .vmem S100x1 .f32) (harg7 : arg7.IsWhole) (arg8 : Memref sig .tc .vmem S100x1 .f32) (harg8 : arg8.IsWhole) (arg9 : Memref sig .tc .vmem S25x1 .f32) (harg9 : arg9.IsWhole) (hc0 : ¬cond0_0 i) (hc1 : cond0_1 i) (x0 : Vec F S1x100x4096 .f32) (x1 : Vec F S1x25x4096 .f32) (xs0 : Vec F S100x25 .f32) (xs1 : Vec F S100x25 .f32) (xs2 : Vec F S100x1 .f32) (xs3 : Vec F S100x1 .f32) (xs4 : Vec F S25x1 .f32) :
    sout0_C_3 (F := F) c i arg2 harg2 arg3 harg3 arg4 harg4 arg5 harg5 arg6 harg6 arg7 harg7 arg8 harg8 arg9 harg9 hc0 hc1 x0 x1 xs0 xs1 xs2 xs3 xs4 = k0_pay15 x0 xs3 := by
  unfold sout0_C_3
  rw [View.read_writes_eq_canon _ _ _ (scover0_C_3 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  refine (View.canon_cons_unit_zero (S := S100x1) zeros2 _ _ _).trans ?_
  simp only [View.readAt_eq_ld, harg2.read_unread, harg3.read_unread, harg4.read_unread, harg5.read_unread, harg6.read_unread, harg7.read_unread, harg8.read_unread, harg9.read_unread, View.ld_unit_zero (S := S1x100x4096) zeros3, View.ld_unit_zero (S := S1x25x4096) zeros3, View.ld_unit_zero (S := S1x100x25) zeros3, View.ld_unit_zero (S := S100x25) zeros2, View.ld_unit_zero (S := S100x1) zeros2, View.ld_unit_zero (S := S25x1) zeros2, View.readCov_unit_zero (S := S100x25) _ zeros2, View.readCov_unit_zero (S := S100x1) _ zeros2, View.readCov_unit_zero (S := S25x1) _ zeros2]

theorem sout0_C_4_eq (c : Dev nD) (i : grid0.Coords) (arg2 : Memref sig .tc .vmem S1x100x4096 .f32) (harg2 : arg2.IsWhole) (arg3 : Memref sig .tc .vmem S1x25x4096 .f32) (harg3 : arg3.IsWhole) (arg4 : Memref sig .tc .vmem S1x100x25 .f32) (harg4 : arg4.IsWhole) (arg5 : Memref sig .tc .vmem S100x25 .f32) (harg5 : arg5.IsWhole) (arg6 : Memref sig .tc .vmem S100x25 .f32) (harg6 : arg6.IsWhole) (arg7 : Memref sig .tc .vmem S100x1 .f32) (harg7 : arg7.IsWhole) (arg8 : Memref sig .tc .vmem S100x1 .f32) (harg8 : arg8.IsWhole) (arg9 : Memref sig .tc .vmem S25x1 .f32) (harg9 : arg9.IsWhole) (hc0 : ¬cond0_0 i) (hc1 : cond0_1 i) (x0 : Vec F S1x100x4096 .f32) (x1 : Vec F S1x25x4096 .f32) (xs0 : Vec F S100x25 .f32) (xs1 : Vec F S100x25 .f32) (xs2 : Vec F S100x1 .f32) (xs3 : Vec F S100x1 .f32) (xs4 : Vec F S25x1 .f32) :
    sout0_C_4 (F := F) c i arg2 harg2 arg3 harg3 arg4 harg4 arg5 harg5 arg6 harg6 arg7 harg7 arg8 harg8 arg9 harg9 hc0 hc1 x0 x1 xs0 xs1 xs2 xs3 xs4 = k0_pay1 (k0_pay12 x1) xs4 := by
  unfold sout0_C_4
  rw [View.read_writes_eq_canon _ _ _ (scover0_C_4 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  refine (View.canon_cons_unit_zero (S := S25x1) zeros2 _ _ _).trans ?_
  simp only [View.readAt_eq_ld, harg2.read_unread, harg3.read_unread, harg4.read_unread, harg5.read_unread, harg6.read_unread, harg7.read_unread, harg8.read_unread, harg9.read_unread, View.ld_unit_zero (S := S1x100x4096) zeros3, View.ld_unit_zero (S := S1x25x4096) zeros3, View.ld_unit_zero (S := S1x100x25) zeros3, View.ld_unit_zero (S := S100x25) zeros2, View.ld_unit_zero (S := S100x1) zeros2, View.ld_unit_zero (S := S25x1) zeros2, View.readCov_unit_zero (S := S100x25) _ zeros2, View.readCov_unit_zero (S := S100x1) _ zeros2, View.readCov_unit_zero (S := S25x1) _ zeros2]

theorem out0_C_2_eq (c : Dev nD) (i : grid0.Coords) (arg2 : Memref sig .tc .vmem S1x100x4096 .f32) (harg2 : arg2.IsWhole) (arg3 : Memref sig .tc .vmem S1x25x4096 .f32) (harg3 : arg3.IsWhole) (arg4 : Memref sig .tc .vmem S1x100x25 .f32) (harg4 : arg4.IsWhole) (arg5 : Memref sig .tc .vmem S100x25 .f32) (harg5 : arg5.IsWhole) (arg6 : Memref sig .tc .vmem S100x25 .f32) (harg6 : arg6.IsWhole) (arg7 : Memref sig .tc .vmem S100x1 .f32) (harg7 : arg7.IsWhole) (arg8 : Memref sig .tc .vmem S100x1 .f32) (harg8 : arg8.IsWhole) (arg9 : Memref sig .tc .vmem S25x1 .f32) (harg9 : arg9.IsWhole) (hc0 : ¬cond0_0 i) (hc1 : cond0_1 i) (x0 : Vec F S1x100x4096 .f32) (x1 : Vec F S1x25x4096 .f32) (xs0 : Vec F S100x25 .f32) (xs1 : Vec F S100x25 .f32) (xs2 : Vec F S100x1 .f32) (xs3 : Vec F S100x1 .f32) (xs4 : Vec F S25x1 .f32) :
    out0_C_2 (F := F) c i arg2 harg2 arg3 harg3 arg4 harg4 arg5 harg5 arg6 harg6 arg7 harg7 arg8 harg8 arg9 harg9 hc0 hc1 x0 x1 xs0 xs1 xs2 xs3 xs4 = k0_pay5 (k0_pay14 x0 xs2) (k0_pay3 (k0_pay11 x0) (k0_pay12 x1) xs0) (k0_pay15 x0 xs3) (k0_pay1 (k0_pay12 x1) xs4) (k0_pay4 (k0_pay12 x1) (k0_pay13 x0) xs1) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  refine (View.canon_cons_unit_zero (S := S1x100x25) zeros3 _ _ _).trans ?_
  simp only [View.readAt_eq_ld, harg2.read_unread, harg3.read_unread, harg4.read_unread, harg5.read_unread, harg6.read_unread, harg7.read_unread, harg8.read_unread, harg9.read_unread, View.ld_unit_zero (S := S1x100x4096) zeros3, View.ld_unit_zero (S := S1x25x4096) zeros3, View.ld_unit_zero (S := S1x100x25) zeros3, View.ld_unit_zero (S := S100x25) zeros2, View.ld_unit_zero (S := S100x1) zeros2, View.ld_unit_zero (S := S25x1) zeros2, View.readCov_unit_zero (S := S100x25) _ zeros2, View.readCov_unit_zero (S := S100x1) _ zeros2, View.readCov_unit_zero (S := S25x1) _ zeros2]

end Cert.KernelPieces

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.KernelPayloads.lean ====
/-
  The kernel body's arithmetic, read at an index, over the extended reals.

  One grid point sees a block of 100 logit rows and 25 target rows, 4096 pixels each. Its stores are five
  "old contents plus this chunk's sum" updates and, at the last chunk, the cost block. Read at an index:
    the target-sum column at row t gains       ∑_r y(t, r),
    the softplus-sum column at row q gains     ∑_r softplus x(q, r),
    the sigmoid-sum column at row q gains      ∑_r sigmoid x(q, r),
    the logit·target matrix at (q, t) gains    ∑_r x(q, r) · y(t, r),
    the sigmoid·target matrix at (q, t) gains  ∑_r sigmoid x(q, r) · y(t, r),
  and the cost block at (q, t) is the mask cost of the five accumulated values at q, t.
  A narrowing of the float format before the matrix products is the identity on extended reals, a matrix product
  into a zero accumulator is the plain sum of products, and a lane reduction is the plain sum along the row.
  The body's softplus carries a guard  d ≠ d  (d = x − 0) that no extended real satisfies, and writes −|d| as 0 − |d|.
-/
import proofs.«167477_j30846455119893_1_alg».proof.Proof.Gen.KernelIdeal.Skeleton
import proofs.«167477_j30846455119893_1_alg».proof.Proof.MaskCostSpec
import proofs.«167477_j30846455119893_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelPayloads

open Idealize.ShloMosaic Idealize.ShloMosaic.ValueIdx
open Cert.KernelIdeal Cert.KernelIdeal.Gen Cert.MaskCost

/-! ## Elementwise facts -/

/-- No extended real differs from itself: the guard's comparison is the zero bit. -/
theorem cmp_one_self (a : EReal) : Ideal.cmp .one a a = 0#1 := by
  simp [Ideal.cmp]

/-- The body's spelling of softplus, guard and all, is softplus. -/
theorem softplus_spelled (x : EReal) :
    Scalar.select (Ideal.cmp .one (x - Ideal.ofBits .f32 0x00000000#32) (x - Ideal.ofBits .f32 0x00000000#32))
        (x + Ideal.ofBits .f32 0x00000000#32)
        (max x (Ideal.ofBits .f32 0x00000000#32)
          + Ideal.log1p (Ideal.exp (Ideal.ofBits .f32 0x00000000#32
              - max (x - Ideal.ofBits .f32 0x00000000#32) (-(x - Ideal.ofBits .f32 0x00000000#32)))))
      = softplus x := by
  rw [cmp_one_self, select_zero, Ideal.ofBits_zero_f32, sub_zero, zero_sub]
  rfl

/-! ## The two blocks re-laid as matrices -/

/-- The logit block [1, 100, 4096] read as a 100 × 4096 matrix: entry (q, r) is the block's (0, q, r). -/
theorem xrow_at (x0 : FVec Ideal S1x100x4096 .f32) (q : Fin 100) (r : Fin 4096) :
    k0_pay11 x0 (ix2 q r) = x0 (ix3 (0 : Fin 1) q r) :=
  shapeCast_1ab_ab_apply x0 shapeCasts_S1x100x4096_S100x4096 q r

/-- The target block [1, 25, 4096] read as a 25 × 4096 matrix. -/
theorem yrow_at (x1 : FVec Ideal S1x25x4096 .f32) (t : Fin 25) (r : Fin 4096) :
    k0_pay12 x1 (ix2 t r) = x1 (ix3 (0 : Fin 1) t r) :=
  shapeCast_1ab_ab_apply x1 shapeCasts_S1x25x4096_S25x4096 t r

/-- The sigmoid of the logit matrix at (q, r). -/
theorem sig_at (x0 : FVec Ideal S1x100x4096 .f32) (q : Fin 100) (r : Fin 4096) :
    k0_pay13 (F := Ideal) x0 (ix2 q r) = sigmoid (x0 (ix3 (0 : Fin 1) q r)) := by
  show Ideal.logistic (k0_pay11 (F := Ideal) x0 (ix2 q r)) = _
  rw [xrow_at]; rfl

/-! ## The zero arrays stored at a batch entry's first chunk -/

theorem zero6_at (j : S100x25.Idx) : k0_pay6 (F := Ideal) j = 0 := Ideal.ofBits_zero_f32
theorem zero7_at (j : S100x25.Idx) : k0_pay7 (F := Ideal) j = 0 := Ideal.ofBits_zero_f32
theorem zero8_at (j : S100x1.Idx) : k0_pay8 (F := Ideal) j = 0 := Ideal.ofBits_zero_f32
theorem zero9_at (j : S100x1.Idx) : k0_pay9 (F := Ideal) j = 0 := Ideal.ofBits_zero_f32
theorem zero10_at (j : S25x1.Idx) : k0_pay10 (F := Ideal) j = 0 := Ideal.ofBits_zero_f32

/-! ## The three column accumulators -/

/-- The target-sum column at row t: what it held plus the row's sum over the chunk. -/
theorem pay1_at (x1 : FVec Ideal S1x25x4096 .f32) (a : FVec Ideal S25x1 .f32) (t : Fin 25) (u : Fin 1) :
    k0_pay1 (k0_pay12 x1) a (ix2 t u) = a (ix2 t u) + ∑ r : Fin 4096, x1 (ix3 (0 : Fin 1) t r) := by
  unfold k0_pay1
  dsimp only
  rw [shapeCast_self]
  refine congrArg (a (ix2 t u) + ·) ?_
  refine (Cert.LibColumn.shapeCast_a_a1_apply _ shapeCasts_S25_S25x1 t u).trans ?_
  refine (Ideal.multiReduction_add_single (k0_pay12 x1) 0x00000000#32 reduces_S25x4096_S25 (.inl rfl) rfl (ix1 t)).trans ?_
  refine Finset.sum_congr rfl fun k _ => ?_
  rw [Cert.LibColumn.lift_cols]
  exact yrow_at x1 t _

/-- The sigmoid-sum column at row q: what it held plus the row's sigmoid sum over the chunk. -/
theorem pay15_at (x0 : FVec Ideal S1x100x4096 .f32) (a : FVec Ideal S100x1 .f32) (q : Fin 100) (u : Fin 1) :
    k0_pay15 (F := Ideal) x0 a (ix2 q u) = a (ix2 q u) + ∑ r : Fin 4096, sigmoid (x0 (ix3 (0 : Fin 1) q r)) := by
  unfold k0_pay15
  dsimp only
  rw [shapeCast_self]
  refine congrArg (a (ix2 q u) + ·) ?_
  refine (Cert.LibColumn.shapeCast_a_a1_apply _ shapeCasts_S100_S100x1 q u).trans ?_
  refine (Ideal.multiReduction_add_single (k0_pay13 x0) 0x00000000#32 reduces_S100x4096_S100 (.inl rfl) rfl (ix1 q)).trans ?_
  refine Finset.sum_congr rfl fun k _ => ?_
  rw [Cert.LibColumn.lift_cols]
  exact sig_at x0 q _

/-- The body's softplus of the logit matrix, at (q, r). -/
theorem softplus_at (x0 : FVec Ideal S1x100x4096 .f32) (q : Fin 100) (r : Fin 4096) :
    select (cmpf .one (subf (k0_pay11 x0) (broadcast S100x4096 (Scalar.ofBits (F := Ideal) .f32 0x00000000#32)))
          (subf (k0_pay11 x0) (broadcast S100x4096 (Scalar.ofBits (F := Ideal) .f32 0x00000000#32))))
        (addf (k0_pay11 x0) (broadcast S100x4096 (Scalar.ofBits (F := Ideal) .f32 0x00000000#32)))
        (addf (maximumf (k0_pay11 x0) (broadcast S100x4096 (Scalar.ofBits (F := Ideal) .f32 0x00000000#32)))
          (log1p (exp (subf (broadcast S100x4096 (Scalar.ofBits (F := Ideal) .f32 0x00000000#32))
            (absf (subf (k0_pay11 x0) (broadcast S100x4096 (Scalar.ofBits (F := Ideal) .f32 0x00000000#32))))))))
        (ix2 q r)
      = softplus (x0 (ix3 (0 : Fin 1) q r)) := by
  refine Eq.trans ?_ (softplus_spelled (x0 (ix3 (0 : Fin 1) q r)))
  rw [← xrow_at x0 q r]
  rfl

/-- The softplus-sum column at row q: what it held plus the row's softplus sum over the chunk. -/
theorem pay14_at (x0 : FVec Ideal S1x100x4096 .f32) (a : FVec Ideal S100x1 .f32) (q : Fin 100) (u : Fin 1) :
    k0_pay14 (F := Ideal) x0 a (ix2 q u) = a (ix2 q u) + ∑ r : Fin 4096, softplus (x0 (ix3 (0 : Fin 1) q r)) := by
  unfold k0_pay14
  dsimp only
  rw [shapeCast_self]
  refine congrArg (a (ix2 q u) + ·) ?_
  refine (Cert.LibColumn.shapeCast_a_a1_apply _ shapeCasts_S100_S100x1 q u).trans ?_
  refine (Ideal.multiReduction_add_single _ 0x00000000#32 reduces_S100x4096_S100 (.inl rfl) rfl (ix1 q)).trans ?_
  refine Finset.sum_congr rfl fun k _ => ?_
  rw [Cert.LibColumn.lift_cols]
  exact softplus_at x0 q _

/-! ## The two matrix accumulators -/

/-- The dot's left operand index at output (q, t): row q (the free axis), the contracted coordinate second. -/
theorem dot_lhs0 (j : S100x25.Idx) (k : dot_S100x4096_S25x4096_S100x25_1_1_0_0_n_n.contr.Idx) : (dot_S100x4096_S25x4096_S100x25_1_1_0_0_n_n.lhsIdx j k 0).val = (j 0).val := by
  unfold DotDims.lhsIdx
  rw [dif_neg (show ¬(0 : Fin S100x4096.rank) ∈ dot_S100x4096_S25x4096_S100x25_1_1_0_0_n_n.lhsBatch by decide),
    dif_pos (show (0 : Fin S100x4096.rank) ∈ dot_S100x4096_S25x4096_S100x25_1_1_0_0_n_n.lhsNonContracting by decide)]
  rfl
theorem dot_lhs1 (j : S100x25.Idx) (k : dot_S100x4096_S25x4096_S100x25_1_1_0_0_n_n.contr.Idx) : (dot_S100x4096_S25x4096_S100x25_1_1_0_0_n_n.lhsIdx j k 1).val = (k ⟨0, by decide⟩).val :=
  dot_S100x4096_S25x4096_S100x25_1_1_0_0_n_n.lhsIdx_val_of_single rfl j k
/-- The right operand index: row t (the output's second axis), the contracted coordinate second. -/
theorem dot_rhs0 (j : S100x25.Idx) (k : dot_S100x4096_S25x4096_S100x25_1_1_0_0_n_n.contr.Idx) : (dot_S100x4096_S25x4096_S100x25_1_1_0_0_n_n.rhsIdx j k 0).val = (j 1).val := by
  unfold DotDims.rhsIdx
  rw [dif_neg (show ¬(0 : Fin S25x4096.rank) ∈ dot_S100x4096_S25x4096_S100x25_1_1_0_0_n_n.rhsBatch by decide),
    dif_pos (show (0 : Fin S25x4096.rank) ∈ dot_S100x4096_S25x4096_S100x25_1_1_0_0_n_n.rhsNonContracting by decide)]
  rfl
theorem dot_rhs1 (j : S100x25.Idx) (k : dot_S100x4096_S25x4096_S100x25_1_1_0_0_n_n.contr.Idx) : (dot_S100x4096_S25x4096_S100x25_1_1_0_0_n_n.rhsIdx j k 1).val = (k ⟨0, by decide⟩).val :=
  dot_S100x4096_S25x4096_S100x25_1_1_0_0_n_n.rhsIdx_val_of_single rfl j k

/-- A 100×4096 by (25×4096)ᵀ product into the zero accumulator, at (q, t): the sum over the 4096 lanes of the
    products of row q of the left with row t of the right. -/
theorem matmul_at {φ₁ φ₂ : FTy} (A : FVec Ideal S100x4096 φ₁) (B : FVec Ideal S25x4096 φ₂) (q : Fin 100) (t : Fin 25) :
    matmul dot_S100x4096_S25x4096_S100x25_1_1_0_0_n_n none A B (constant S100x25 .f32 0x00000000#32) (ix2 q t)
      = ∑ r : Fin 4096, A (ix2 q r) * B (ix2 t r) := by
  simp only [matmul]
  rw [Ideal.matmul_constant_zero_apply, ← Equiv.sum_comp (contrEquiv1 dot_S100x4096_S25x4096_S100x25_1_1_0_0_n_n 4096 rfl rfl).symm]
  refine Finset.sum_congr rfl fun k _ => ?_
  have hk := contrEquiv1_symm_val dot_S100x4096_S25x4096_S100x25_1_1_0_0_n_n 4096 rfl rfl k
  have el : dot_S100x4096_S25x4096_S100x25_1_1_0_0_n_n.lhsIdx (ix2 q t) ((contrEquiv1 dot_S100x4096_S25x4096_S100x25_1_1_0_0_n_n 4096 rfl rfl).symm k) = ix2 q k := funext fun a => Fin.ext (by
    match a with
    | ⟨0, _⟩ => exact dot_lhs0 _ _
    | ⟨1, _⟩ => exact (dot_lhs1 _ _).trans hk)
  have er : dot_S100x4096_S25x4096_S100x25_1_1_0_0_n_n.rhsIdx (ix2 q t) ((contrEquiv1 dot_S100x4096_S25x4096_S100x25_1_1_0_0_n_n 4096 rfl rfl).symm k) = ix2 t k := funext fun a => Fin.ext (by
    match a with
    | ⟨0, _⟩ => exact dot_rhs0 _ _
    | ⟨1, _⟩ => exact (dot_rhs1 _ _).trans hk)
  rw [el, er]

/-- The logit·target matrix at (q, t): what it held plus the chunk's inner product of logit row q with target row t. -/
theorem pay3_at (x0 : FVec Ideal S1x100x4096 .f32) (x1 : FVec Ideal S1x25x4096 .f32) (a : FVec Ideal S100x25 .f32)
    (q : Fin 100) (t : Fin 25) :
    k0_pay3 (F := Ideal) (k0_pay11 x0) (k0_pay12 x1) a (ix2 q t)
      = a (ix2 q t) + ∑ r : Fin 4096, x0 (ix3 (0 : Fin 1) q r) * x1 (ix3 (0 : Fin 1) t r) := by
  unfold k0_pay3 k0_pay2
  dsimp only
  rw [shapeCast_self]
  refine congrArg (a (ix2 q t) + ·) ?_
  refine (matmul_at _ _ q t).trans ?_
  refine Finset.sum_congr rfl fun r _ => ?_
  show k0_pay11 (F := Ideal) x0 (ix2 q r) * k0_pay12 (F := Ideal) x1 (ix2 t r) = _
  rw [xrow_at, yrow_at]

/-- The sigmoid·target matrix at (q, t): what it held plus the chunk's inner product of the sigmoid of logit row q
    with target row t. -/
theorem pay4_at (x0 : FVec Ideal S1x100x4096 .f32) (x1 : FVec Ideal S1x25x4096 .f32) (a : FVec Ideal S100x25 .f32)
    (q : Fin 100) (t : Fin 25) :
    k0_pay4 (F := Ideal) (k0_pay12 x1) (k0_pay13 x0) a (ix2 q t)
      = a (ix2 q t) + ∑ r : Fin 4096, sigmoid (x0 (ix3 (0 : Fin 1) q r)) * x1 (ix3 (0 : Fin 1) t r) := by
  unfold k0_pay4 k0_pay2
  dsimp only
  rw [shapeCast_self]
  refine congrArg (a (ix2 q t) + ·) ?_
  refine (matmul_at _ _ q t).trans ?_
  refine Finset.sum_congr rfl fun r _ => ?_
  show k0_pay13 (F := Ideal) x0 (ix2 q r) * k0_pay12 (F := Ideal) x1 (ix2 t r) = _
  rw [sig_at, yrow_at]

/-! ## The cost block -/

/-- The block stored at a batch entry's last chunk, at (q, t): the mask cost of the five accumulated values. -/
theorem pay5_at (sp : FVec Ideal S100x1 .f32) (xy : FVec Ideal S100x25 .f32) (sg : FVec Ideal S100x1 .f32)
    (ys : FVec Ideal S25x1 .f32) (nm : FVec Ideal S100x25 .f32) (u : Fin 1) (q : Fin 100) (t : Fin 25) :
    k0_pay5 (F := Ideal) sp xy sg ys nm (ix3 u q t)
      = maskCost (sp (ix2 q (0 : Fin 1))) (xy (ix2 q t)) (sg (ix2 q (0 : Fin 1))) (ys (ix2 t (0 : Fin 1))) (nm (ix2 q t)) := by
  unfold k0_pay5
  dsimp only
  refine (shapeCast_ab_1ab_apply _ shapeCasts_S100x25_S1x100x25 u q t).trans ?_
  simp only [addf_apply, subf_apply, divf_apply, mulf_apply, broadcast_apply]
  rw [Cert.LibColumn.broadcastTo_a1_ab_apply _ broadcasts_S100x1_S100x25 q t,
    Cert.LibColumn.broadcastTo_a1_ab_apply _ broadcasts_S100x1_S100x25 q t,
    broadcastTo_1b_ab_apply _ broadcasts_S1x25_S100x25 q t,
    transpose_ix2_apply _ transposes_S25x1_p1_0_S1x25 (0 : Fin 1) t]
  simp only [divf_apply, broadcast_apply]
  rfl

end Cert.KernelPayloads

end
-- ==== Proof.KernelAccum.lean ====
/-
  The five partial sums, point by point.

  Grid point t = 16·b + p works on batch entry b and pixel chunk p (pixels 4096·p … 4096·p + 4095). Its two input
  blocks are rows of the arrays X (logits, [4, 100, 65536]) and Y (targets, [4, 25, 65536]) that the region finds:
  lane r of row q of the logit block is X(b, q, 4096·p + r), and likewise for Y.
  After point 16·b + p each of the five carried buffers holds the sum of the FIRST p + 1 CHUNKS of its summand
  (logit·target, sigmoid·target, softplus, sigmoid, target): at p = 0 the buffer was just zeroed and gains chunk 0;
  at p + 1 it gains chunk p + 1. At p = 15 all sixteen chunks are in, which is the whole row of 65536 pixels, and the
  block the body stores is the mask cost of those whole-row sums.
-/
import proofs.«167477_j30846455119893_1_alg».proof.Proof.KernelPieces
import proofs.«167477_j30846455119893_1_alg».proof.Proof.KernelPayloads

set_option maxRecDepth 16384

noncomputable section

namespace Cert.KernelAccum

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.MaskCost Cert.KernelPayloads Cert.KernelPieces

variable (m : (ℓ : Loc nD τ sig) → Buf (Elt Ideal) ℓ) (c : Dev nD)

/-- The logits as the region finds them. -/
abbrev X : (⟨3, ![4, 100, 65536]⟩ : Shape).Idx → EReal := V m c main_v0
/-- The targets as the region finds them. -/
abbrev Y : (⟨3, ![4, 25, 65536]⟩ : Shape).Idx → EReal := V m c main_v1

/-! ## Which block a point reads -/

/-- The block indices of the two input windows at point t: batch t / 16, row block 0, pixel chunk t % 16. -/
theorem idx_in : ∀ t : Fin cfg0.N,
    win0_0.index t 0 = t.val / 16 ∧ win0_0.index t 1 = 0 ∧ win0_0.index t 2 = t.val % 16
    ∧ win0_1.index t 0 = t.val / 16 ∧ win0_1.index t 1 = 0 ∧ win0_1.index t 2 = t.val % 16 :=
  (by decide +kernel : ∀ t : Fin grid0.N, _)

/-- Lane r of row q of the logit block at point 16·b + p is X(b, q, 4096·p + r). -/
theorem xblk_at (t : Fin cfg0.N) (b : Fin 4) (p : ℕ) (hp : p < 16) (ht : t.val = 16 * b.val + p) (q : Fin 100) (r : Fin 4096) :
    (iblk m c 0 t : Vec Ideal S1x100x4096 .f32) (ix3 (0 : Fin 1) q r) = px (X m c) b q (4096 * p + r.val) := by
  have hr := r.isLt
  rw [px_lt _ _ _ (show 4096 * p + r.val < 65536 by omega)]
  obtain ⟨i0, i1, i2, -, -, -⟩ := idx_in t
  unfold iblk
  rw [View.read_apply]
  show V m c main_v0 _ = V m c main_v0 _
  congr 1
  funext a
  apply Fin.ext
  match a with
  | ⟨0, _⟩ => show win0_0.index t 0 * 1 + 1 * 0 = b.val; rw [i0]; omega
  | ⟨1, _⟩ => show win0_0.index t 1 * 100 + 1 * q.val = q.val; rw [i1]; omega
  | ⟨2, _⟩ => show win0_0.index t 2 * 4096 + 1 * r.val = 4096 * p + r.val; rw [i2]; omega

/-- Lane r of row u of the target block at point 16·b + p is Y(b, u, 4096·p + r). -/
theorem yblk_at (t : Fin cfg0.N) (b : Fin 4) (p : ℕ) (hp : p < 16) (ht : t.val = 16 * b.val + p) (u : Fin 25) (r : Fin 4096) :
    (iblk m c 1 t : Vec Ideal S1x25x4096 .f32) (ix3 (0 : Fin 1) u r) = px (Y m c) b u (4096 * p + r.val) := by
  have hr := r.isLt
  rw [px_lt _ _ _ (show 4096 * p + r.val < 65536 by omega)]
  obtain ⟨-, -, -, i0, i1, i2⟩ := idx_in t
  unfold iblk
  rw [View.read_apply]
  show V m c main_v1 _ = V m c main_v1 _
  congr 1
  funext a
  apply Fin.ext
  match a with
  | ⟨0, _⟩ => show win0_1.index t 0 * 1 + 1 * 0 = b.val; rw [i0]; omega
  | ⟨1, _⟩ => show win0_1.index t 1 * 25 + 1 * u.val = u.val; rw [i1]; omega
  | ⟨2, _⟩ => show win0_1.index t 2 * 4096 + 1 * r.val = 4096 * p + r.val; rw [i2]; omega

/-! ## The accumulated arrays -/

/-- The first n chunks of the logit·target sums of batch entry b, as a 100 × 25 array. -/
def accXY (b : Fin 4) (n : ℕ) : S100x25.Idx → EReal := fun j => chunks (xyT (X m c) (Y m c) b (j 0) (j 1)) n
/-- The first n chunks of the sigmoid·target sums, as a 100 × 25 array. -/
def accNM (b : Fin 4) (n : ℕ) : S100x25.Idx → EReal := fun j => chunks (nmT (X m c) (Y m c) b (j 0) (j 1)) n
/-- The first n chunks of the softplus row sums, as a 100 × 1 column. -/
def accSP (b : Fin 4) (n : ℕ) : S100x1.Idx → EReal := fun j => chunks (spT (X m c) b (j 0)) n
/-- The first n chunks of the sigmoid row sums, as a 100 × 1 column. -/
def accSG (b : Fin 4) (n : ℕ) : S100x1.Idx → EReal := fun j => chunks (sgT (X m c) b (j 0)) n
/-- The first n chunks of the target row sums, as a 25 × 1 column. -/
def accYS (b : Fin 4) (n : ℕ) : S25x1.Idx → EReal := fun j => chunks (ysT (Y m c) b (j 0)) n

/-! ## One chunk more

For blocks x0, x1 that are chunk p of batch entry b (hx, hy), each update turns "the first p chunks" into "the first
p + 1 chunks". -/

section step
variable (b : Fin 4) (p : ℕ) (x0 : FVec Ideal S1x100x4096 .f32) (x1 : FVec Ideal S1x25x4096 .f32)
  (hx : ∀ (q : Fin 100) (r : Fin 4096), x0 (ix3 (0 : Fin 1) q r) = px (X m c) b q (4096 * p + r.val))
  (hy : ∀ (u : Fin 25) (r : Fin 4096), x1 (ix3 (0 : Fin 1) u r) = px (Y m c) b u (4096 * p + r.val))
include hx hy

theorem step_xy (A : FVec Ideal S100x25 .f32) (hA : ∀ j, A j = accXY m c b p j) :
    k0_pay3 (F := Ideal) (k0_pay11 x0) (k0_pay12 x1) A = accXY m c b (p + 1) := by
  funext j
  obtain ⟨q, u, rfl⟩ : ∃ (q : Fin 100) (u : Fin 25), j = ix2 q u := ⟨j 0, j 1, eq_ix2 j⟩
  rw [pay3_at, hA]
  show chunks (xyT (X m c) (Y m c) b q u) p + _ = chunks (xyT (X m c) (Y m c) b q u) (p + 1)
  rw [chunks_succ]
  refine congrArg (chunks (xyT (X m c) (Y m c) b q u) p + ·) (Finset.sum_congr rfl fun r _ => ?_)
  rw [hx, hy]; rfl

theorem step_nm (A : FVec Ideal S100x25 .f32) (hA : ∀ j, A j = accNM m c b p j) :
    k0_pay4 (F := Ideal) (k0_pay12 x1) (k0_pay13 x0) A = accNM m c b (p + 1) := by
  funext j
  obtain ⟨q, u, rfl⟩ : ∃ (q : Fin 100) (u : Fin 25), j = ix2 q u := ⟨j 0, j 1, eq_ix2 j⟩
  rw [pay4_at, hA]
  show chunks (nmT (X m c) (Y m c) b q u) p + _ = chunks (nmT (X m c) (Y m c) b q u) (p + 1)
  rw [chunks_succ]
  refine congrArg (chunks (nmT (X m c) (Y m c) b q u) p + ·) (Finset.sum_congr rfl fun r _ => ?_)
  rw [hx, hy]; rfl

theorem step_sp (A : FVec Ideal S100x1 .f32) (hA : ∀ j, A j = accSP m c b p j) :
    k0_pay14 (F := Ideal) x0 A = accSP m c b (p + 1) := by
  funext j
  obtain ⟨q, u, rfl⟩ : ∃ (q : Fin 100) (u : Fin 1), j = ix2 q u := ⟨j 0, j 1, eq_ix2 j⟩
  rw [pay14_at, hA]
  show chunks (spT (X m c) b q) p + _ = chunks (spT (X m c) b q) (p + 1)
  rw [chunks_succ]
  refine congrArg (chunks (spT (X m c) b q) p + ·) (Finset.sum_congr rfl fun r _ => ?_)
  rw [hx]; rfl

theorem step_sg (A : FVec Ideal S100x1 .f32) (hA : ∀ j, A j = accSG m c b p j) :
    k0_pay15 (F := Ideal) x0 A = accSG m c b (p + 1) := by
  funext j
  obtain ⟨q, u, rfl⟩ : ∃ (q : Fin 100) (u : Fin 1), j = ix2 q u := ⟨j 0, j 1, eq_ix2 j⟩
  rw [pay15_at, hA]
  show chunks (sgT (X m c) b q) p + _ = chunks (sgT (X m c) b q) (p + 1)
  rw [chunks_succ]
  refine congrArg (chunks (sgT (X m c) b q) p + ·) (Finset.sum_congr rfl fun r _ => ?_)
  rw [hx]; rfl

theorem step_ys (A : FVec Ideal S25x1 .f32) (hA : ∀ j, A j = accYS m c b p j) :
    k0_pay1 (F := Ideal) (k0_pay12 x1) A = accYS m c b (p + 1) := by
  funext j
  obtain ⟨q, u, rfl⟩ : ∃ (q : Fin 25) (u : Fin 1), j = ix2 q u := ⟨j 0, j 1, eq_ix2 j⟩
  rw [pay1_at, hA]
  show chunks (ysT (Y m c) b q) p + _ = chunks (ysT (Y m c) b q) (p + 1)
  rw [chunks_succ]
  refine congrArg (chunks (ysT (Y m c) b q) p + ·) (Finset.sum_congr rfl fun r _ => ?_)
  rw [hy]; rfl

end step

/-! ## All sixteen chunks: the cost block -/

/-- From the five buffers holding all sixteen chunks the body's block is, at (q, t), the mask cost of the whole-row sums. -/
theorem cost_block (b : Fin 4) (sp : FVec Ideal S100x1 .f32) (xy : FVec Ideal S100x25 .f32) (sg : FVec Ideal S100x1 .f32)
    (ys : FVec Ideal S25x1 .f32) (nm : FVec Ideal S100x25 .f32)
    (hsp : sp = accSP m c b 16) (hxy : xy = accXY m c b 16) (hsg : sg = accSG m c b 16) (hys : ys = accYS m c b 16)
    (hnm : nm = accNM m c b 16) (y : S1x100x25.Idx) :
    k0_pay5 (F := Ideal) sp xy sg ys nm y = maskAt (X m c) (Y m c) b (y 1) (y 2) := by
  obtain ⟨u, q, t, rfl⟩ : ∃ (u : Fin 1) (q : Fin 100) (t : Fin 25), y = ix3 u q t := ⟨y 0, y 1, y 2, eq_ix3 y⟩
  rw [pay5_at, hsp, hxy, hsg, hys, hnm]
  show maskCost (chunks (spT (X m c) b q) 16) (chunks (xyT (X m c) (Y m c) b q t) 16) (chunks (sgT (X m c) b q) 16)
      (chunks (ysT (Y m c) b t) 16) (chunks (nmT (X m c) (Y m c) b q t) 16) = _
  rw [chunks_all, chunks_all, chunks_all, chunks_all, chunks_all]
  rfl

/-! ## The induction over a batch entry's chunks -/

/-- The point-indexed contents do not depend on how the point's number is written. -/
theorem outsAt0_congr {n n' : ℕ} (h : n = n') (hn : n < cfg0.N) (hn' : n' < cfg0.N) :
    outsAt0 m c n hn = outsAt0 m c n' hn' := by subst h; rfl

/-- After point 16·b + p the five carried buffers hold the first p + 1 chunks of their sums. -/
theorem scratch_after (b : Fin 4) : ∀ (p : ℕ) (hp : p < 16) (hn : 16 * b.val + p < cfg0.N),
    (outsAt0 m c (16 * b.val + p) hn).2
      = (accXY m c b (p + 1), accNM m c b (p + 1), accSP m c b (p + 1), accSG m c b (p + 1), accYS m c b (p + 1))
  | 0, hp, hn => by
    have h0 : (⟨16 * b.val + 0, hn⟩ : Fin cfg0.N).val % 16 = 0 := by show (16 * b.val + 0) % 16 = 0; omega
    have h1 : ¬(⟨16 * b.val + 0, hn⟩ : Fin cfg0.N).val % 16 = 15 := by show ¬(16 * b.val + 0) % 16 = 15; omega
    have hx := xblk_at m c ⟨16 * b.val + 0, hn⟩ b 0 hp rfl
    have hy := yblk_at m c ⟨16 * b.val + 0, hn⟩ b 0 hp rfl
    rw [outsAt0_A m c ⟨16 * b.val + 0, hn⟩ h0 h1]
    dsimp only
    simp only [Prod.mk.injEq]
    refine ⟨?_, ?_, ?_, ?_, ?_⟩
    · exact (sout0_A_0_eq ..).trans (step_xy m c b 0 _ _ hx hy _ (fun j => (zero6_at j).trans (chunks_zero _).symm))
    · exact (sout0_A_1_eq ..).trans (step_nm m c b 0 _ _ hx hy _ (fun j => (zero7_at j).trans (chunks_zero _).symm))
    · exact (sout0_A_2_eq ..).trans (step_sp m c b 0 _ _ hx hy _ (fun j => (zero8_at j).trans (chunks_zero _).symm))
    · exact (sout0_A_3_eq ..).trans (step_sg m c b 0 _ _ hx hy _ (fun j => (zero9_at j).trans (chunks_zero _).symm))
    · exact (sout0_A_4_eq ..).trans (step_ys m c b 0 _ _ hx hy _ (fun j => (zero10_at j).trans (chunks_zero _).symm))
  | p + 1, hp, hn => by
    have ih := scratch_after b p (by omega) (by omega)
    have h0 : ¬(⟨16 * b.val + (p + 1), hn⟩ : Fin cfg0.N).val % 16 = 0 := by show ¬(16 * b.val + (p + 1)) % 16 = 0; omega
    have hx := xblk_at m c ⟨16 * b.val + (p + 1), hn⟩ b (p + 1) hp rfl
    have hy := yblk_at m c ⟨16 * b.val + (p + 1), hn⟩ b (p + 1) hp rfl
    have e0 := fun j => congrFun (congrArg (fun z => z.1) ih) j
    have e1 := fun j => congrFun (congrArg (fun z => z.2.1) ih) j
    have e2 := fun j => congrFun (congrArg (fun z => z.2.2.1) ih) j
    have e3 := fun j => congrFun (congrArg (fun z => z.2.2.2.1) ih) j
    have e4 := fun j => congrFun (congrArg (fun z => z.2.2.2.2) ih) j
    by_cases h1 : (⟨16 * b.val + (p + 1), hn⟩ : Fin cfg0.N).val % 16 = 15
    · rw [outsAt0_C m c ⟨16 * b.val + (p + 1), hn⟩ h0 h1]
      dsimp only
      simp only [Prod.mk.injEq]
      refine ⟨?_, ?_, ?_, ?_, ?_⟩
      · exact (sout0_C_0_eq ..).trans (step_xy m c b (p + 1) _ _ hx hy _ e0)
      · exact (sout0_C_1_eq ..).trans (step_nm m c b (p + 1) _ _ hx hy _ e1)
      · exact (sout0_C_2_eq ..).trans (step_sp m c b (p + 1) _ _ hx hy _ e2)
      · exact (sout0_C_3_eq ..).trans (step_sg m c b (p + 1) _ _ hx hy _ e3)
      · exact (sout0_C_4_eq ..).trans (step_ys m c b (p + 1) _ _ hx hy _ e4)
    · rw [outsAt0_B m c ⟨16 * b.val + (p + 1), hn⟩ h0 h1]
      dsimp only
      simp only [Prod.mk.injEq]
      refine ⟨?_, ?_, ?_, ?_, ?_⟩
      · exact (sout0_B_0_eq ..).trans (step_xy m c b (p + 1) _ _ hx hy _ e0)
      · exact (sout0_B_1_eq ..).trans (step_nm m c b (p + 1) _ _ hx hy _ e1)
      · exact (sout0_B_2_eq ..).trans (step_sp m c b (p + 1) _ _ hx hy _ e2)
      · exact (sout0_B_3_eq ..).trans (step_sg m c b (p + 1) _ _ hx hy _ e3)
      · exact (sout0_B_4_eq ..).trans (step_ys m c b (p + 1) _ _ hx hy _ e4)

/-- After a batch entry's last point the output buffer holds, at (q, t), the mask cost of the whole-row sums. -/
theorem out_after (b : Fin 4) (hn : 16 * b.val + 15 < cfg0.N) :
    (outsAt0 m c (16 * b.val + 15) hn).1 = fun y => maskAt (X m c) (Y m c) b (y 1) (y 2) := by
  have ih := scratch_after m c b 14 (by omega) (by omega)
  have h0 : ¬(⟨16 * b.val + 15, hn⟩ : Fin cfg0.N).val % 16 = 0 := by show ¬(16 * b.val + 15) % 16 = 0; omega
  have h1 : (⟨16 * b.val + 15, hn⟩ : Fin cfg0.N).val % 16 = 15 := by show (16 * b.val + 15) % 16 = 15; omega
  have hx := xblk_at m c ⟨16 * b.val + 15, hn⟩ b 15 (by omega) rfl
  have hy := yblk_at m c ⟨16 * b.val + 15, hn⟩ b 15 (by omega) rfl
  have e0 := fun j => congrFun (congrArg (fun z => z.1) ih) j
  have e1 := fun j => congrFun (congrArg (fun z => z.2.1) ih) j
  have e2 := fun j => congrFun (congrArg (fun z => z.2.2.1) ih) j
  have e3 := fun j => congrFun (congrArg (fun z => z.2.2.2.1) ih) j
  have e4 := fun j => congrFun (congrArg (fun z => z.2.2.2.2) ih) j
  rw [outsAt0_C m c ⟨16 * b.val + 15, hn⟩ h0 h1]
  dsimp only
  refine (out0_C_2_eq ..).trans ?_
  funext y
  exact cost_block m c b _ _ _ _ _ (step_sp m c b 15 _ _ hx hy _ e2) (step_xy m c b 15 _ _ hx hy _ e0)
    (step_sg m c b 15 _ _ hx hy _ e3) (step_ys m c b 15 _ _ hx hy _ e4) (step_nm m c b 15 _ _ hx hy _ e1) y

/-! ## From the blocks to the array -/

/-- The output window's block indices at point t: batch t / 16, and block 0 on the other two axes. -/
theorem idx_out : ∀ t : Fin cfg0.N, win0_2.index t 0 = t.val / 16 ∧ win0_2.index t 1 = 0 ∧ win0_2.index t 2 = 0 :=
  (by decide +kernel : ∀ t : Fin grid0.N, _)

/-- What a flushing point (the last chunk of a batch entry) writes back is its block of the mask-cost array. -/
theorem flushed_eq (t : Fin cfg0.N) (hf : (cfg0.win 2).flush t = true) :
    (dats m 0 c).flushed 2 t = ((cfg0.win 2).blk t).view.read (Elt Ideal) (maskArr (X m c) (Y m c)) := by
  have h15 : t.val % 16 = 15 := (flush0_2 t).mp hf
  have hN : cfg0.N = 64 := N_0
  have hlt := t.isLt
  have hb : t.val / 16 < 4 := by omega
  obtain ⟨o0, o1, o2⟩ := idx_out t
  show (cfg0.win 2).cut (grid0.coords t) ((dats m 0 c).after 2 t) = _
  rw [after0_2, outsAt0_congr m c (show t.val = 16 * (⟨t.val / 16, hb⟩ : Fin 4).val + 15 by show t.val = 16 * (t.val / 16) + 15; omega) t.isLt (by show 16 * (t.val / 16) + 15 < cfg0.N; omega),
    out_after m c ⟨t.val / 16, hb⟩]
  funext y
  show maskAt (X m c) (Y m c) ⟨t.val / 16, hb⟩ (y 1) (y 2) = maskArr (X m c) (Y m c) (((cfg0.win 2).blk t).view.emb y)
  have e : ((cfg0.win 2).blk t).view.emb y = ix3 (⟨t.val / 16, hb⟩ : Fin 4) (y 1) (y 2) := by
    funext a
    apply Fin.ext
    match a with
    | ⟨0, _⟩ => show win0_2.index t 0 * 1 + 1 * (y 0).val = t.val / 16; have : (y 0).val < 1 := (y 0).isLt; rw [o0]; omega
    | ⟨1, _⟩ => show win0_2.index t 1 * 100 + 1 * (y 1).val = (y 1).val; rw [o1]; omega
    | ⟨2, _⟩ => show win0_2.index t 2 * 25 + 1 * (y 2).val = (y 2).val; rw [o2]; omega
  rw [e]
  rfl

/-- An index of the result array lies in point t's block iff each coordinate lies in the block's range. -/
theorem mem_blk (t : Fin cfg0.N) (i : S4x100x25.Idx) :
    i ∈ ((cfg0.win 2).blk t).view.set ↔ ∀ a : Fin 3, win0_2.index t a * S1x100x25.size a ≤ (i a).val ∧ (i a).val < win0_2.index t a * S1x100x25.size a + S1x100x25.size a := by
  show i ∈ ((View.whole main_v2).slice (win0_2.rect t)).set ↔ _
  rw [View.set_slice_whole, Rect.mem_set_unit]
  exact Iff.rfl

/-- THE REGION'S RESULT: the array the kernel leaves is the mask-cost array of the logits and targets it found.
    Batch entry b's block is written back by point 16·b + 15, and the four blocks tile the array. -/
theorem final : (dats m 0 c).arrAt 2 cfg0.N = maskArr (X m c) (Y m c) :=
  (dats m 0 c).arrAt_eq_of_cover 2 (maskArr (X m c) (Y m c)) (fun t hf => flushed_eq m c t hf) fun i => by
    have hN : cfg0.N = 64 := N_0
    have hi0 : (i 0).val < 4 := (i 0).isLt
    have hi1 : (i 1).val < 100 := (i 1).isLt
    have hi2 : (i 2).val < 25 := (i 2).isLt
    have hlt : 16 * (i 0).val + 15 < cfg0.N := by omega
    obtain ⟨o0, o1, o2⟩ := idx_out ⟨16 * (i 0).val + 15, hlt⟩
    have o0' : win0_2.index ⟨16 * (i 0).val + 15, hlt⟩ 0 = (i 0).val := by rw [o0]; show (16 * (i 0).val + 15) / 16 = (i 0).val; omega
    refine ⟨⟨16 * (i 0).val + 15, hlt⟩, (flush0_2 _).mpr (by show (16 * (i 0).val + 15) % 16 = 15; omega), ?_⟩
    rw [mem_blk]
    intro a
    match a with
    | ⟨0, _⟩ => show win0_2.index ⟨16 * (i 0).val + 15, hlt⟩ 0 * 1 ≤ (i 0).val ∧ (i 0).val < win0_2.index ⟨16 * (i 0).val + 15, hlt⟩ 0 * 1 + 1; rw [o0']; omega
    | ⟨1, _⟩ => show win0_2.index ⟨16 * (i 0).val + 15, hlt⟩ 1 * 100 ≤ (i 1).val ∧ (i 1).val < win0_2.index ⟨16 * (i 0).val + 15, hlt⟩ 1 * 100 + 100; rw [o1]; omega
    | ⟨2, _⟩ => show win0_2.index ⟨16 * (i 0).val + 15, hlt⟩ 2 * 25 ≤ (i 2).val ∧ (i 2).val < win0_2.index ⟨16 * (i 0).val + 15, hlt⟩ 2 * 25 + 25; rw [o2]; omega

end Cert.KernelAccum

end
-- ==== Proof.lean ====
/-
  The kernel and its reference compute one cost array, as extended reals.

  Inputs: class logits [4, 100, 81], mask logits [4, 100, 256, 256], labels [4, 25] and target masks [4, 25, 256, 256].
  With the two image axes flattened into 65536 pixels, the cost of pairing query q with target t in batch entry b is
      c(b, q, t) + bce(b, q, t) + dice(b, q, t),
  where c is minus the softmax probability of the target's label, bce = Σ softplus(x) / P − Σ x·y / P is the mean binary
  cross-entropy over the P = 65536 pixels and dice = 1 − 2·Σ sigmoid(x)·y / (Σ sigmoid(x) + Σ y + ε).

  The reference takes each of the five pixel sums over a whole row at once and adds (1·c + 1·bce) + 1·dice.
  The kernel program takes them sixteen chunks of 4096 pixels at a time — five buffers carried from chunk to chunk,
  zeroed at a batch entry's first chunk, the block bce + dice stored at its last — and afterwards adds (1·c + 0) + block.
  On the extended reals a sum may be taken in any grouping, a narrowed float is the same number, a matrix product into
  a zero accumulator is the sum of products, the two spellings of softplus and of the sigmoid agree, and 1·z = z; so the two
  results are equal at every index, for all inputs: finiteness of the inputs is never used.

  The modules: the mathematics (MaskCostSpec), the reference read as that mathematics (RefCost), what each grid point
  leaves in each buffer (KernelPieces, KernelPayloads), the sixteen chunks added up and the four blocks laid into the
  array (KernelAccum), the reshapes before the region and the lines after it (KernelHost). Here they are put together.
-/
import proofs.«167477_j30846455119893_1_alg».proof.Defs
import proofs.«167477_j30846455119893_1_alg».proof.Proof.Gen.Kernel
import proofs.«167477_j30846455119893_1_alg».proof.Proof.Gen.Kernel.Skeleton
import proofs.«167477_j30846455119893_1_alg».proof.Proof.Gen.Kernel.Launch
import proofs.«167477_j30846455119893_1_alg».proof.Proof.Gen.Kernel.Points
import proofs.«167477_j30846455119893_1_alg».proof.Proof.Gen.Kernel.Frame
import proofs.«167477_j30846455119893_1_alg».proof.Proof.Gen.KernelIdeal
import proofs.«167477_j30846455119893_1_alg».proof.Proof.Gen.KernelIdeal.Skeleton
import proofs.«167477_j30846455119893_1_alg».proof.Proof.Gen.KernelIdeal.Launch
import proofs.«167477_j30846455119893_1_alg».proof.Proof.Gen.KernelIdeal.Points
import proofs.«167477_j30846455119893_1_alg».proof.Proof.Gen.KernelIdeal.Frame
import proofs.«167477_j30846455119893_1_alg».proof.Proof.Gen.ReferenceIdeal
import proofs.«167477_j30846455119893_1_alg».proof.Proof.Gen.ReferenceIdeal.Run
import proofs.«167477_j30846455119893_1_alg».proof.Proof.Gen.ReferenceIdeal.Read
import proofs.«167477_j30846455119893_1_alg».proof.Proof.Gen.Pre_finite_inputs
import proofs.«167477_j30846455119893_1_alg».proof.Proof.MaskCostSpec
import proofs.«167477_j30846455119893_1_alg».proof.Proof.RefCost
import proofs.«167477_j30846455119893_1_alg».proof.Proof.KernelHost
import proofs.«167477_j30846455119893_1_alg».proof.Proof.KernelAccum
import Idealize.ShloMosaic.Adequacy
import Idealize.ShloMosaic.Init

noncomputable section

namespace Cert.Proof

open Idealize.ShloMosaic Idealize.ShloMosaic.TcCoe Idealize.SL.Sem

/-- The kernel program as printed runs, and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel program and its reading over the extended reals. -/
theorem preserves : Cert.preserves_Kernel_KernelIdeal := trivial

/-- From memories that agree on the four arguments both programs end with the same [4, 100, 25] array: the kernel
    program with (1·c + 0) + (mask cost summed in sixteen chunks), the reference with (1·c + 1·bce) + 1·dice over whole
    rows, of the same flattened logits and targets and the same classification cost c. -/
theorem algebraic : Cert.algebraic_KernelIdeal_ReferenceIdeal := by
  intro m ρ m' ρ' _ hagree
  refine ⟨fun c => Cert.MaskCost.totalGroupedArr (Cert.KernelAccum.X m c) (Cert.KernelAccum.Y m c)
      (Cert.ReferenceIdeal.Read.val_main_v15 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))), ?_, ?_⟩
  · exact Cert.KernelHost.run_value m ρ (fun c => Cert.MaskCost.maskArr (Cert.KernelAccum.X m c) (Cert.KernelAccum.Y m c))
      (fun c => Cert.KernelAccum.final m c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v54_eq, Cert.RefCost.ref_total, (hagree c).1, (hagree c).2.1,
      (hagree c).2.2.1, (hagree c).2.2.2]
    show _ = Cert.MaskCost.totalGroupedArr (Cert.KernelAccum.X m c) (Cert.KernelAccum.Y m c) _
    rw [Cert.MaskCost.totalGroupedArr_eq_totalSpreadArr]
    exact congrArg₂ (fun a b => Cert.MaskCost.totalSpreadArr a b _) (Cert.KernelHost.V_x_read m c).symm
      (Cert.KernelHost.V_y_read m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
